-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v146)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v146) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000x1 : Shape := ⟨2, ![100000, 1]⟩
abbrev S2x1250000 : Shape := ⟨2, ![2, 1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  reducesTo_S_S_d : S_.ReducesTo [] S_

variable [Facts]

def fn_part1 {F : FTy → Type} [FloatOps F] (main_arg5 : FVec F S_ .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S_ .f32 := Host.absf main_arg5
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S100000x64 .f32) (main_arg1 : FVec F S100000x1 .f32) (main_arg2 : IVec S2x1250000 32) (main_arg3 : FVec F S64x64 .f32) (main_arg4 : FVec F S64 .f32) (main_arg5 : FVec F S_ .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Kernel.lean ====
abbrev S100000x64 : Shape := ⟨2, ![100000, 64]⟩
abbrev S100000x1 : Shape := ⟨2, ![100000, 1]⟩
abbrev S2x1250000 : Shape := ⟨2, ![2, 1250000]⟩
abbrev S64x64 : Shape := ⟨2, ![64, 64]⟩
abbrev S64 : Shape := ⟨1, ![64]⟩
abbrev S_ : Shape := ⟨0, ![]⟩
abbrev S1x1250000 : Shape := ⟨2, ![1, 1250000]⟩
abbrev S1250000 : Shape := ⟨1, ![1250000]⟩
abbrev S1x64 : Shape := ⟨2, ![1, 64]⟩
abbrev S10000x64 : Shape := ⟨2, ![10000, 64]⟩
abbrev S1253376 : Shape := ⟨1, ![1253376]⟩
abbrev S1253376x1 : Shape := ⟨2, ![1253376, 1]⟩
abbrev S1253376x64 : Shape := ⟨2, ![1253376, 64]⟩
abbrev S8192x64 : Shape := ⟨2, ![8192, 64]⟩
abbrev S8192x1 : Shape := ⟨2, ![8192, 1]⟩
abbrev S8192 : Shape := ⟨1, ![8192]⟩
abbrev S100000 : Shape := ⟨1, ![100000]⟩
abbrev S1350000 : Shape := ⟨1, ![1350000]⟩
abbrev S1350000x1 : Shape := ⟨2, ![1350000, 1]⟩

abbrev nBuf : Space → Nat
  | .hbm => 194
  | .vmem => 12
  | .smem => 0
  | _ => 0

abbrev hbmTy0_0 (i : Nat) : BufTy := match i % 128 with
  | 0 => ⟨S100000x64, .f32⟩
  | 1 => ⟨S100000x1, .f32⟩
  | 2 => ⟨S2x1250000, .i32⟩
  | 3 => ⟨S64x64, .f32⟩
  | 4 => ⟨S64, .f32⟩
  | 5 => ⟨S_, .f32⟩
  | 6 => ⟨S1x1250000, .i32⟩
  | 7 => ⟨S1250000, .i32⟩
  | 8 => ⟨S1x1250000, .i32⟩
  | 9 => ⟨S1250000, .i32⟩
  | 10 => ⟨S64x64, .f32⟩
  | 11 => ⟨S1x64, .f32⟩
  | 12 => ⟨S100000x64, .f32⟩
  | 13 => ⟨S_, .i32⟩
  | 14 => ⟨S_, .i32⟩
  | 15 => ⟨S1253376, .i32⟩
  | 16 => ⟨S_, .i32⟩
  | 17 => ⟨S_, .i32⟩
  | 18 => ⟨S1253376, .i32⟩
  | 19 => ⟨S_, .i32⟩
  | 20 => ⟨S1253376, .i32⟩
  | 21 => ⟨S1253376, .i1⟩
  | 22 => ⟨S_, .i32⟩
  | 23 => ⟨S1253376, .i32⟩
  | 24 => ⟨S1253376, .i32⟩
  | 25 => ⟨S1253376, .i32⟩
  | 26 => ⟨S1253376x1, .i32⟩
  | 27 => ⟨S1253376x64, .f32⟩
  | 28 => ⟨S_, .i32⟩
  | 29 => ⟨S1253376, .i32⟩
  | 30 => ⟨S1253376, .i1⟩
  | 31 => ⟨S_, .i32⟩
  | 32 => ⟨S1253376, .i32⟩
  | 33 => ⟨S1253376, .i32⟩
  | 34 => ⟨S1253376, .i32⟩
  | 35 => ⟨S1253376x1, .i32⟩
  | 36 => ⟨S1253376x64, .f32⟩
  | 37 => ⟨S1253376x1, .f32⟩
  | 38 => ⟨S1253376, .f32⟩
  | 39 => ⟨S1250000, .f32⟩
  | 40 => ⟨S100000, .i32⟩
  | 41 => ⟨S1350000, .i32⟩
  | 42 => ⟨S1350000, .i32⟩
  | 43 => ⟨S_, .f32⟩
  | 44 => ⟨S100000, .f32⟩
  | 45 => ⟨S1350000, .f32⟩
  | 46 => ⟨S_, .f32⟩
  | 47 => ⟨S100000, .f32⟩
  | 48 => ⟨S1350000x1, .i32⟩
  | 49 => ⟨S100000, .f32⟩
  | 50 => ⟨S_, .f32⟩
  | 51 => ⟨S100000, .f32⟩
  | 52 => ⟨S100000, .i1⟩
  | 53 => ⟨S_, .f32⟩
  | 54 => ⟨S100000, .f32⟩
  | 55 => ⟨S100000, .f32⟩
  | 56 => ⟨S100000, .f32⟩
  | 57 => ⟨S_, .f32⟩
  | 58 => ⟨S_, .f32⟩
  | 59 => ⟨S100000, .f32⟩
  | 60 => ⟨S100000, .f32⟩
  | 61 => ⟨S_, .i32⟩
  | 62 => ⟨S1350000, .i32⟩
  | 63 => ⟨S1350000, .i1⟩
  | 64 => ⟨S_, .i32⟩
  | 65 => ⟨S1350000, .i32⟩
  | 66 => ⟨S1350000, .i32⟩
  | 67 => ⟨S1350000, .i32⟩
  | 68 => ⟨S1350000x1, .i32⟩
  | 69 => ⟨S1350000, .f32⟩
  | 70 => ⟨S1350000, .f32⟩
  | 71 => ⟨S_, .i32⟩
  | 72 => ⟨S1350000, .i32⟩
  | 73 => ⟨S1350000, .i1⟩
  | 74 => ⟨S_, .i32⟩
  | 75 => ⟨S1350000, .i32⟩
  | 76 => ⟨S1350000, .i32⟩
  | 77 => ⟨S1350000, .i32⟩
  | 78 => ⟨S1350000x1, .i32⟩
  | 79 => ⟨S1350000, .f32⟩
  | 80 => ⟨S1350000, .f32⟩
  | 81 => ⟨S_, .f32⟩
  | 82 => ⟨S100000x1, .f32⟩
  | 83 => ⟨S100000x1, .f32⟩
  | 84 => ⟨S1350000x1, .f32⟩
  | 85 => ⟨S_, .i32⟩
  | 86 => ⟨S1350000, .i32⟩
  | 87 => ⟨S1350000, .i1⟩
  | 88 => ⟨S_, .i32⟩
  | 89 => ⟨S1350000, .i32⟩
  | 90 => ⟨S1350000, .i32⟩
  | 91 => ⟨S1350000, .i32⟩
  | 92 => ⟨S1350000x1, .i32⟩
  | 93 => ⟨S1350000x1, .f32⟩
  | 94 => ⟨S1350000x1, .f32⟩
  | 95 => ⟨S_, .f32⟩
  | 96 => ⟨S100000x1, .f32⟩
  | 97 => ⟨S1350000x1, .i32⟩
  | 98 => ⟨S100000x1, .f32⟩
  | 99 => ⟨S_, .f32⟩
  | 100 => ⟨S_, .f32⟩
  | 101 => ⟨S100000x1, .f32⟩
  | 102 => ⟨S100000x1, .f32⟩
  | 103 => ⟨S100000x1, .f32⟩
  | 104 => ⟨S100000x1, .f32⟩
  | 105 => ⟨S100000x1, .f32⟩
  | 106 => ⟨S1350000x1, .f32⟩
  | 107 => ⟨S_, .i32⟩
  | 108 => ⟨S1350000, .i32⟩
  | 109 => ⟨S1350000, .i1⟩
  | 110 => ⟨S_, .i32⟩
  | 111 => ⟨S1350000, .i32⟩
  | 112 => ⟨S1350000, .i32⟩
  | 113 => ⟨S1350000, .i32⟩
  | 114 => ⟨S1350000x1, .i32⟩
  | 115 => ⟨S1350000x1, .f32⟩
  | 116 => ⟨S1350000x1, .f32⟩
  | 117 => ⟨S_, .f32⟩
  | 118 => ⟨S100000x1, .f32⟩
  | 119 => ⟨S1350000x1, .i32⟩
  | 120 => ⟨S100000x1, .f32⟩
  | 121 => ⟨S_, .f32⟩
  | 122 => ⟨S_, .f32⟩
  | 123 => ⟨S100000x1, .f32⟩
  | 124 => ⟨S100000x1, .f32⟩
  | 125 => ⟨S100000x1, .f32⟩
  | 126 => ⟨S100000x1, .f32⟩
  | 127 => ⟨S100000x1, .f32⟩
  | _ => ⟨S100000x64, .f32⟩

abbrev hbmTy0_1 (i : Nat) : BufTy := match i % 128 with
  | 0 => ⟨S1350000x1, .f32⟩
  | 1 => ⟨S_, .i32⟩
  | 2 => ⟨S1350000, .i32⟩
  | 3 => ⟨S1350000, .i1⟩
  | 4 => ⟨S_, .i32⟩
  | 5 => ⟨S1350000, .i32⟩
  | 6 => ⟨S1350000, .i32⟩
  | 7 => ⟨S1350000, .i32⟩
  | 8 => ⟨S1350000x1, .i32⟩
  | 9 => ⟨S1350000x1, .f32⟩
  | 10 => ⟨S1350000x1, .f32⟩
  | 11 => ⟨S_, .f32⟩
  | 12 => ⟨S100000x1, .f32⟩
  | 13 => ⟨S1350000x1, .i32⟩
  | 14 => ⟨S100000x1, .f32⟩
  | 15 => ⟨S_, .f32⟩
  | 16 => ⟨S_, .f32⟩
  | 17 => ⟨S100000x1, .f32⟩
  | 18 => ⟨S100000x1, .f32⟩
  | 19 => ⟨S100000x1, .f32⟩
  | 20 => ⟨S100000x1, .f32⟩
  | 21 => ⟨S100000x1, .f32⟩
  | 22 => ⟨S1350000x1, .f32⟩
  | 23 => ⟨S_, .i32⟩
  | 24 => ⟨S1350000, .i32⟩
  | 25 => ⟨S1350000, .i1⟩
  | 26 => ⟨S_, .i32⟩
  | 27 => ⟨S1350000, .i32⟩
  | 28 => ⟨S1350000, .i32⟩
  | 29 => ⟨S1350000, .i32⟩
  | 30 => ⟨S1350000x1, .i32⟩
  | 31 => ⟨S1350000x1, .f32⟩
  | 32 => ⟨S1350000x1, .f32⟩
  | 33 => ⟨S_, .f32⟩
  | 34 => ⟨S100000x1, .f32⟩
  | 35 => ⟨S1350000x1, .i32⟩
  | 36 => ⟨S100000x1, .f32⟩
  | 37 => ⟨S_, .f32⟩
  | 38 => ⟨S_, .f32⟩
  | 39 => ⟨S100000x1, .f32⟩
  | 40 => ⟨S100000x1, .f32⟩
  | 41 => ⟨S100000x1, .f32⟩
  | 42 => ⟨S100000x1, .f32⟩
  | 43 => ⟨S100000x1, .f32⟩
  | 44 => ⟨S1350000x1, .f32⟩
  | 45 => ⟨S_, .i32⟩
  | 46 => ⟨S1350000, .i32⟩
  | 47 => ⟨S1350000, .i1⟩
  | 48 => ⟨S_, .i32⟩
  | 49 => ⟨S1350000, .i32⟩
  | 50 => ⟨S1350000, .i32⟩
  | 51 => ⟨S1350000, .i32⟩
  | 52 => ⟨S1350000x1, .i32⟩
  | 53 => ⟨S1350000x1, .f32⟩
  | 54 => ⟨S1350000x1, .f32⟩
  | 55 => ⟨S_, .f32⟩
  | 56 => ⟨S100000x1, .f32⟩
  | 57 => ⟨S1350000x1, .i32⟩
  | 58 => ⟨S100000x1, .f32⟩
  | 59 => ⟨S_, .f32⟩
  | 60 => ⟨S_, .f32⟩
  | 61 => ⟨S100000x1, .f32⟩
  | 62 => ⟨S100000x1, .f32⟩
  | 63 => ⟨S100000x1, .f32⟩
  | 64 => ⟨S100000x1, .f32⟩
  | 65 => ⟨S100000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S8192x64, .f32⟩
  | .local _ .vmem, ⟨7, _⟩ => ⟨S8192x64, .f32⟩
  | .local _ .vmem, ⟨8, _⟩ => ⟨S8192x64, .f32⟩
  | .local _ .vmem, ⟨9, _⟩ => ⟨S8192x64, .f32⟩
  | .local _ .vmem, ⟨10, _⟩ => ⟨S8192x1, .f32⟩
  | .local _ .vmem, ⟨11, _⟩ => ⟨S8192x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_call2_v0 : Ref sig .tc := ⟨.hbm, 58, rfl⟩
abbrev main_call2_v1 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_c_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_11 : Ref sig .tc := ⟨.hbm, 71, rfl⟩
abbrev main_v48 : Ref sig .tc := ⟨.hbm, 72, rfl⟩
abbrev main_v49 : Ref sig .tc := ⟨.hbm, 73, rfl⟩
abbrev main_c_12 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call3_cst : Ref sig .tc := ⟨.hbm, 81, rfl⟩
abbrev main_call3_v0 : Ref sig .tc := ⟨.hbm, 82, rfl⟩
abbrev main_v56 : Ref sig .tc := ⟨.hbm, 83, rfl⟩
abbrev main_v57 : Ref sig .tc := ⟨.hbm, 84, rfl⟩
abbrev main_c_13 : Ref sig .tc := ⟨.hbm, 85, rfl⟩
abbrev main_v58 : Ref sig .tc := ⟨.hbm, 86, rfl⟩
abbrev main_v59 : Ref sig .tc := ⟨.hbm, 87, rfl⟩
abbrev main_c_14 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_15 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_17 : Ref sig .tc := ⟨.hbm, 107, rfl⟩
abbrev main_v76 : Ref sig .tc := ⟨.hbm, 108, rfl⟩
abbrev main_v77 : Ref sig .tc := ⟨.hbm, 109, rfl⟩
abbrev main_c_18 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_19 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_20 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_c_21 : Ref sig .tc := ⟨.hbm, 129, rfl⟩
abbrev main_v94 : Ref sig .tc := ⟨.hbm, 130, rfl⟩
abbrev main_v95 : Ref sig .tc := ⟨.hbm, 131, rfl⟩
abbrev main_c_22 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_23 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_24 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_c_25 : Ref sig .tc := ⟨.hbm, 151, rfl⟩
abbrev main_v112 : Ref sig .tc := ⟨.hbm, 152, rfl⟩
abbrev main_v113 : Ref sig .tc := ⟨.hbm, 153, rfl⟩
abbrev main_c_26 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_27 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_cst_28 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_c_29 : Ref sig .tc := ⟨.hbm, 173, rfl⟩
abbrev main_v130 : Ref sig .tc := ⟨.hbm, 174, rfl⟩
abbrev main_v131 : Ref sig .tc := ⟨.hbm, 175, rfl⟩
abbrev main_c_30 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_cst_31 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_cst_32 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![153], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  transposes_S64x64_S64x64_1_0 : S64x64.Transposes [1, 0] S64x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  pads_S1250000_S1253376_033760 : S1250000.Pads (![0] : Fin 1 → Nat) ![3376] ![0] S1253376
  h_S_ : 0 < S_.numel
  bcast_S_S1253376 : S_.BroadcastsInDim S1253376 (![] : Fin 0 → Fin S1253376.rank)
  bcast_S1253376_S1253376x1_0 : S1253376.BroadcastsInDim S1253376x1 (![0] : Fin 1 → Fin S1253376x1.rank)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  reduces_S8192x64_S8192 : S8192x64.Reduces [1] S8192
  shapeCasts_S8192_S8192x1 : S8192.ShapeCasts S8192x1
  inb_S8192x1_S8192x1_0_0 : ∀ a, (![0, 0] : Fin 2 → Nat) a + S8192x1.size a ≤ S8192x1.size a
  h_S8192x1 : 0 < S8192x1.numel
  shapeCasts_S1253376x1_S1253376 : S1253376x1.ShapeCasts S1253376
  slices_S1253376_S1250000_0 : S1253376.Slices ![0] S1250000
  concatenates_S1250000_S100000_S1350000_d0 : Shape.Concatenates [S1250000, S100000] S1350000 0
  bcast_S_S100000 : S_.BroadcastsInDim S100000 (![] : Fin 0 → Fin S100000.rank)
  bcast_S1350000_S1350000x1_0 : S1350000.BroadcastsInDim S1350000x1 (![0] : Fin 1 → Fin S1350000x1.rank)
  bcast_S_S1350000 : S_.BroadcastsInDim S1350000 (![] : Fin 0 → Fin S1350000.rank)
  bcast_S_S100000x1 : S_.BroadcastsInDim S100000x1 (![] : Fin 0 → Fin S100000x1.rank)
  dot_S10000x64_S64x64_S10000x64_1_0_0_1_n_n_wf : DotDims.WF S10000x64 S64x64 S10000x64 [1] [0] [0] [1] [] []
  gather_S100000x64_S1253376x1_S1253376x64_1_0_n_n_0_1_164_wf : GatherDims.WF S100000x64 S1253376x1 S1253376x64 [1] [0] [] [0] [] 1 ![1, 64]
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  gather_S100000x1_S1350000x1_S1350000x1_1_0_n_n_0_1_11_wf : GatherDims.WF S100000x1 S1350000x1 S1350000x1 [1] [0] [] [0] [] 1 ![1, 1]
  scatter_S100000x1_S1350000x1_S1350000x1_1_0_0_1_wf : ScatterDims.WF S100000x1 S1350000x1 S1350000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S1253376x64.size a
  hwx1_0 : ∀ i : grid1.Coords, EltTy.bits .f32 = 32 ∨ (Rect.block (s := S1253376x64) S8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S1253376x64.size a
  hwx1_1 : ∀ i : grid1.Coords, EltTy.bits .f32 = 32 ∨ (Rect.block (s := S1253376x64) S8192x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x1.size a ≤ S1253376x1.size a
  hwx1_2 : ∀ i : grid1.Coords, EltTy.bits .f32 = 32 ∨ (Rect.block (s := S1253376x1) S8192x1.size (cc1_transform_2 i) (hinb1_2 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1253376x1_S1253376x64_1_0_n_n_0_1_164 : GatherDims S100000x64 S1253376x1 S1253376x64 where
  offsetDims := [1]
  collapsedSliceDims := [0]
  operandBatchingDims := []
  startIndicesBatchingDims := []
  startIndexMap := [0]
  indexVectorDim := 1
  sliceSizes := ![1, 64]
  wf := gather_S100000x64_S1253376x1_S1253376x64_1_0_n_n_0_1_164_wf
def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def gather_S100000x1_S1350000x1_S1350000x1_1_0_n_n_0_1_11 : GatherDims S100000x1 S1350000x1 S1350000x1 where
  offsetDims := [1]
  collapsedSliceDims := [0]
  operandBatchingDims := []
  startIndicesBatchingDims := []
  startIndexMap := [0]
  indexVectorDim := 1
  sliceSizes := ![1, 1]
  wf := gather_S100000x1_S1350000x1_S1350000x1_1_0_n_n_0_1_11_wf
def scatter_S100000x1_S1350000x1_S1350000x1_1_0_0_1 : ScatterDims S100000x1 S1350000x1 S1350000x1 where
  updateWindowDims := [1]
  insertedWindowDims := [0]
  scatterDimsToOperandDims := [0]
  indexVectorDim := 1
  wf := scatter_S100000x1_S1350000x1_S1350000x1_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S8192x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S8192x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S100000x1 : Shape := ⟨2, ![100000, 1]⟩
abbrev S2x1250000 : Shape := ⟨2, ![2, 1250000]⟩
abbrev S64x64 : Shape := ⟨2, ![64, 64]⟩
abbrev S64 : Shape := ⟨1, ![64]⟩
abbrev S_ : Shape := ⟨0, ![]⟩
abbrev S1x64 : Shape := ⟨2, ![1, 64]⟩
abbrev S1x1250000 : Shape := ⟨2, ![1, 1250000]⟩
abbrev S1250000 : Shape := ⟨1, ![1250000]⟩
abbrev S1250000x1 : Shape := ⟨2, ![1250000, 1]⟩
abbrev S1250000x64 : Shape := ⟨2, ![1250000, 64]⟩
abbrev S100000 : Shape := ⟨1, ![100000]⟩
abbrev S1350000 : Shape := ⟨1, ![1350000]⟩
abbrev S1350000x1 : Shape := ⟨2, ![1350000, 1]⟩

abbrev nBuf : Space → Nat
  | .hbm => 210
  | .vmem => 0
  | .smem => 0
  | _ => 0

abbrev hbmTy0_0 (i : Nat) : BufTy := match i % 128 with
  | 0 => ⟨S100000x64, .f32⟩
  | 1 => ⟨S100000x1, .f32⟩
  | 2 => ⟨S2x1250000, .i32⟩
  | 3 => ⟨S64x64, .f32⟩
  | 4 => ⟨S64, .f32⟩
  | 5 => ⟨S_, .f32⟩
  | 6 => ⟨S64x64, .f32⟩
  | 7 => ⟨S100000x64, .f32⟩
  | 8 => ⟨S1x64, .f32⟩
  | 9 => ⟨S100000x64, .f32⟩
  | 10 => ⟨S100000x64, .f32⟩
  | 11 => ⟨S100000x64, .f32⟩
  | 12 => ⟨S1x1250000, .i32⟩
  | 13 => ⟨S1250000, .i32⟩
  | 14 => ⟨S1x1250000, .i32⟩
  | 15 => ⟨S1250000, .i32⟩
  | 16 => ⟨S_, .i32⟩
  | 17 => ⟨S1250000, .i32⟩
  | 18 => ⟨S1250000, .i1⟩
  | 19 => ⟨S_, .i32⟩
  | 20 => ⟨S1250000, .i32⟩
  | 21 => ⟨S1250000, .i32⟩
  | 22 => ⟨S1250000, .i32⟩
  | 23 => ⟨S1250000x1, .i32⟩
  | 24 => ⟨S1250000x64, .f32⟩
  | 25 => ⟨S_, .i32⟩
  | 26 => ⟨S1250000, .i32⟩
  | 27 => ⟨S1250000, .i1⟩
  | 28 => ⟨S_, .i32⟩
  | 29 => ⟨S1250000, .i32⟩
  | 30 => ⟨S1250000, .i32⟩
  | 31 => ⟨S1250000, .i32⟩
  | 32 => ⟨S1250000x1, .i32⟩
  | 33 => ⟨S1250000x64, .f32⟩
  | 34 => ⟨S1250000x64, .f32⟩
  | 35 => ⟨S_, .f32⟩
  | 36 => ⟨S1250000, .f32⟩
  | 37 => ⟨S1250000, .f32⟩
  | 38 => ⟨S_, .f32⟩
  | 39 => ⟨S1250000, .f32⟩
  | 40 => ⟨S1250000, .f32⟩
  | 41 => ⟨S1250000x64, .f32⟩
  | 42 => ⟨S_, .f32⟩
  | 43 => ⟨S1250000, .f32⟩
  | 44 => ⟨S1250000, .f32⟩
  | 45 => ⟨S_, .f32⟩
  | 46 => ⟨S1250000, .f32⟩
  | 47 => ⟨S1250000, .f32⟩
  | 48 => ⟨S1250000x64, .f32⟩
  | 49 => ⟨S_, .f32⟩
  | 50 => ⟨S1250000, .f32⟩
  | 51 => ⟨S1250000, .f32⟩
  | 52 => ⟨S1250000, .f32⟩
  | 53 => ⟨S_, .f32⟩
  | 54 => ⟨S1250000, .f32⟩
  | 55 => ⟨S1250000, .f32⟩
  | 56 => ⟨S100000, .i32⟩
  | 57 => ⟨S1350000, .i32⟩
  | 58 => ⟨S1350000, .i32⟩
  | 59 => ⟨S_, .f32⟩
  | 60 => ⟨S100000, .f32⟩
  | 61 => ⟨S1350000, .f32⟩
  | 62 => ⟨S_, .f32⟩
  | 63 => ⟨S100000, .f32⟩
  | 64 => ⟨S1350000x1, .i32⟩
  | 65 => ⟨S100000, .f32⟩
  | 66 => ⟨S_, .f32⟩
  | 67 => ⟨S100000, .f32⟩
  | 68 => ⟨S100000, .i1⟩
  | 69 => ⟨S_, .f32⟩
  | 70 => ⟨S100000, .f32⟩
  | 71 => ⟨S100000, .f32⟩
  | 72 => ⟨S100000, .f32⟩
  | 73 => ⟨S_, .f32⟩
  | 74 => ⟨S_, .f32⟩
  | 75 => ⟨S100000, .f32⟩
  | 76 => ⟨S100000, .f32⟩
  | 77 => ⟨S_, .i32⟩
  | 78 => ⟨S1350000, .i32⟩
  | 79 => ⟨S1350000, .i1⟩
  | 80 => ⟨S_, .i32⟩
  | 81 => ⟨S1350000, .i32⟩
  | 82 => ⟨S1350000, .i32⟩
  | 83 => ⟨S1350000, .i32⟩
  | 84 => ⟨S1350000x1, .i32⟩
  | 85 => ⟨S1350000, .f32⟩
  | 86 => ⟨S1350000, .f32⟩
  | 87 => ⟨S_, .i32⟩
  | 88 => ⟨S1350000, .i32⟩
  | 89 => ⟨S1350000, .i1⟩
  | 90 => ⟨S_, .i32⟩
  | 91 => ⟨S1350000, .i32⟩
  | 92 => ⟨S1350000, .i32⟩
  | 93 => ⟨S1350000, .i32⟩
  | 94 => ⟨S1350000x1, .i32⟩
  | 95 => ⟨S1350000, .f32⟩
  | 96 => ⟨S1350000, .f32⟩
  | 97 => ⟨S_, .f32⟩
  | 98 => ⟨S100000x1, .f32⟩
  | 99 => ⟨S100000x1, .f32⟩
  | 100 => ⟨S1350000x1, .f32⟩
  | 101 => ⟨S_, .i32⟩
  | 102 => ⟨S1350000, .i32⟩
  | 103 => ⟨S1350000, .i1⟩
  | 104 => ⟨S_, .i32⟩
  | 105 => ⟨S1350000, .i32⟩
  | 106 => ⟨S1350000, .i32⟩
  | 107 => ⟨S1350000, .i32⟩
  | 108 => ⟨S1350000x1, .i32⟩
  | 109 => ⟨S1350000x1, .f32⟩
  | 110 => ⟨S1350000x1, .f32⟩
  | 111 => ⟨S_, .f32⟩
  | 112 => ⟨S100000x1, .f32⟩
  | 113 => ⟨S1350000x1, .i32⟩
  | 114 => ⟨S100000x1, .f32⟩
  | 115 => ⟨S_, .f32⟩
  | 116 => ⟨S_, .f32⟩
  | 117 => ⟨S100000x1, .f32⟩
  | 118 => ⟨S100000x1, .f32⟩
  | 119 => ⟨S100000x1, .f32⟩
  | 120 => ⟨S100000x1, .f32⟩
  | 121 => ⟨S100000x1, .f32⟩
  | 122 => ⟨S1350000x1, .f32⟩
  | 123 => ⟨S_, .i32⟩
  | 124 => ⟨S1350000, .i32⟩
  | 125 => ⟨S1350000, .i1⟩
  | 126 => ⟨S_, .i32⟩
  | 127 => ⟨S1350000, .i32⟩
  | _ => ⟨S100000x64, .f32⟩

abbrev hbmTy0_1 (i : Nat) : BufTy := match i % 128 with
  | 0 => ⟨S1350000, .i32⟩
  | 1 => ⟨S1350000, .i32⟩
  | 2 => ⟨S1350000x1, .i32⟩
  | 3 => ⟨S1350000x1, .f32⟩
  | 4 => ⟨S1350000x1, .f32⟩
  | 5 => ⟨S_, .f32⟩
  | 6 => ⟨S100000x1, .f32⟩
  | 7 => ⟨S1350000x1, .i32⟩
  | 8 => ⟨S100000x1, .f32⟩
  | 9 => ⟨S_, .f32⟩
  | 10 => ⟨S_, .f32⟩
  | 11 => ⟨S100000x1, .f32⟩
  | 12 => ⟨S100000x1, .f32⟩
  | 13 => ⟨S100000x1, .f32⟩
  | 14 => ⟨S100000x1, .f32⟩
  | 15 => ⟨S100000x1, .f32⟩
  | 16 => ⟨S1350000x1, .f32⟩
  | 17 => ⟨S_, .i32⟩
  | 18 => ⟨S1350000, .i32⟩
  | 19 => ⟨S1350000, .i1⟩
  | 20 => ⟨S_, .i32⟩
  | 21 => ⟨S1350000, .i32⟩
  | 22 => ⟨S1350000, .i32⟩
  | 23 => ⟨S1350000, .i32⟩
  | 24 => ⟨S1350000x1, .i32⟩
  | 25 => ⟨S1350000x1, .f32⟩
  | 26 => ⟨S1350000x1, .f32⟩
  | 27 => ⟨S_, .f32⟩
  | 28 => ⟨S100000x1, .f32⟩
  | 29 => ⟨S1350000x1, .i32⟩
  | 30 => ⟨S100000x1, .f32⟩
  | 31 => ⟨S_, .f32⟩
  | 32 => ⟨S_, .f32⟩
  | 33 => ⟨S100000x1, .f32⟩
  | 34 => ⟨S100000x1, .f32⟩
  | 35 => ⟨S100000x1, .f32⟩
  | 36 => ⟨S100000x1, .f32⟩
  | 37 => ⟨S100000x1, .f32⟩
  | 38 => ⟨S1350000x1, .f32⟩
  | 39 => ⟨S_, .i32⟩
  | 40 => ⟨S1350000, .i32⟩
  | 41 => ⟨S1350000, .i1⟩
  | 42 => ⟨S_, .i32⟩
  | 43 => ⟨S1350000, .i32⟩
  | 44 => ⟨S1350000, .i32⟩
  | 45 => ⟨S1350000, .i32⟩
  | 46 => ⟨S1350000x1, .i32⟩
  | 47 => ⟨S1350000x1, .f32⟩
  | 48 => ⟨S1350000x1, .f32⟩
  | 49 => ⟨S_, .f32⟩
  | 50 => ⟨S100000x1, .f32⟩
  | 51 => ⟨S1350000x1, .i32⟩
  | 52 => ⟨S100000x1, .f32⟩
  | 53 => ⟨S_, .f32⟩
  | 54 => ⟨S_, .f32⟩
  | 55 => ⟨S100000x1, .f32⟩
  | 56 => ⟨S100000x1, .f32⟩
  | 57 => ⟨S100000x1, .f32⟩
  | 58 => ⟨S100000x1, .f32⟩
  | 59 => ⟨S100000x1, .f32⟩
  | 60 => ⟨S1350000x1, .f32⟩
  | 61 => ⟨S_, .i32⟩
  | 62 => ⟨S1350000, .i32⟩
  | 63 => ⟨S1350000, .i1⟩
  | 64 => ⟨S_, .i32⟩
  | 65 => ⟨S1350000, .i32⟩
  | 66 => ⟨S1350000, .i32⟩
  | 67 => ⟨S1350000, .i32⟩
  | 68 => ⟨S1350000x1, .i32⟩
  | 69 => ⟨S1350000x1, .f32⟩
  | 70 => ⟨S1350000x1, .f32⟩
  | 71 => ⟨S_, .f32⟩
  | 72 => ⟨S100000x1, .f32⟩
  | 73 => ⟨S1350000x1, .i32⟩
  | 74 => ⟨S100000x1, .f32⟩
  | 75 => ⟨S_, .f32⟩
  | 76 => ⟨S_, .f32⟩
  | 77 => ⟨S100000x1, .f32⟩
  | 78 => ⟨S100000x1, .f32⟩
  | 79 => ⟨S100000x1, .f32⟩
  | 80 => ⟨S100000x1, .f32⟩
  | 81 => ⟨S100000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call0_cst : Ref sig .tc := ⟨.hbm, 53, rfl⟩
abbrev main_call0_v0 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_call1_v0 : Ref sig .tc := ⟨.hbm, 74, rfl⟩
abbrev main_call1_v1 : Ref sig .tc := ⟨.hbm, 75, rfl⟩
abbrev main_v52 : Ref sig .tc := ⟨.hbm, 76, rfl⟩
abbrev main_c_12 : Ref sig .tc := ⟨.hbm, 77, rfl⟩
abbrev main_v53 : Ref sig .tc := ⟨.hbm, 78, rfl⟩
abbrev main_v54 : Ref sig .tc := ⟨.hbm, 79, rfl⟩
abbrev main_c_13 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_c_15 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call2_cst : Ref sig .tc := ⟨.hbm, 97, rfl⟩
abbrev main_call2_v0 : Ref sig .tc := ⟨.hbm, 98, rfl⟩
abbrev main_v69 : Ref sig .tc := ⟨.hbm, 99, rfl⟩
abbrev main_v70 : Ref sig .tc := ⟨.hbm, 100, rfl⟩
abbrev main_c_16 : Ref sig .tc := ⟨.hbm, 101, rfl⟩
abbrev main_v71 : Ref sig .tc := ⟨.hbm, 102, rfl⟩
abbrev main_v72 : Ref sig .tc := ⟨.hbm, 103, rfl⟩
abbrev main_c_17 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_18 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_c_20 : Ref sig .tc := ⟨.hbm, 123, rfl⟩
abbrev main_v89 : Ref sig .tc := ⟨.hbm, 124, rfl⟩
abbrev main_v90 : Ref sig .tc := ⟨.hbm, 125, rfl⟩
abbrev main_c_21 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_22 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_23 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_c_24 : Ref sig .tc := ⟨.hbm, 145, rfl⟩
abbrev main_v107 : Ref sig .tc := ⟨.hbm, 146, rfl⟩
abbrev main_v108 : Ref sig .tc := ⟨.hbm, 147, rfl⟩
abbrev main_c_25 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_26 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_27 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_c_28 : Ref sig .tc := ⟨.hbm, 167, rfl⟩
abbrev main_v125 : Ref sig .tc := ⟨.hbm, 168, rfl⟩
abbrev main_v126 : Ref sig .tc := ⟨.hbm, 169, rfl⟩
abbrev main_c_29 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_cst_30 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_cst_31 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_c_32 : Ref sig .tc := ⟨.hbm, 189, rfl⟩
abbrev main_v143 : Ref sig .tc := ⟨.hbm, 190, rfl⟩
abbrev main_v144 : Ref sig .tc := ⟨.hbm, 191, rfl⟩
abbrev main_c_33 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_cst_34 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_cst_35 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  reducesTo_S1250000x64_S1250000_d1 : S1250000x64.ReducesTo [1] S1250000
  h_S_ : 0 < S_.numel
  concatenates_S1250000_S100000_S1350000_d0 : Shape.Concatenates [S1250000, S100000] S1350000 0
  bcast_S_S100000 : S_.BroadcastsInDim S100000 (![] : Fin 0 → Fin S100000.rank)
  bcast_S1350000_S1350000x1_0 : S1350000.BroadcastsInDim S1350000x1 (![0] : Fin 1 → Fin S1350000x1.rank)
  bcast_S_S1350000 : S_.BroadcastsInDim S1350000 (![] : Fin 0 → Fin S1350000.rank)
  bcast_S_S100000x1 : S_.BroadcastsInDim S100000x1 (![] : Fin 0 → Fin S100000x1.rank)
  dot_S100000x64_S64x64_S100000x64_1_0_0_1_n_n_wf : DotDims.WF S100000x64 S64x64 S100000x64 [1] [0] [0] [1] [] []
  gather_S100000x64_S1250000x1_S1250000x64_1_0_n_n_0_1_164_wf : GatherDims.WF S100000x64 S1250000x1 S1250000x64 [1] [0] [] [0] [] 1 ![1, 64]
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  gather_S100000x1_S1350000x1_S1350000x1_1_0_n_n_0_1_11_wf : GatherDims.WF S100000x1 S1350000x1 S1350000x1 [1] [0] [] [0] [] 1 ![1, 1]
  scatter_S100000x1_S1350000x1_S1350000x1_1_0_0_1_wf : ScatterDims.WF S100000x1 S1350000x1 S1350000x1 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def gather_S100000x1_S1350000x1_S1350000x1_1_0_n_n_0_1_11 : GatherDims S100000x1 S1350000x1 S1350000x1 where
  offsetDims := [1]
  collapsedSliceDims := [0]
  operandBatchingDims := []
  startIndicesBatchingDims := []
  startIndexMap := [0]
  indexVectorDim := 1
  sliceSizes := ![1, 1]
  wf := gather_S100000x1_S1350000x1_S1350000x1_1_0_n_n_0_1_11_wf
def scatter_S100000x1_S1350000x1_S1350000x1_1_0_0_1 : ScatterDims S100000x1 S1350000x1 S1350000x1 where
  updateWindowDims := [1]
  insertedWindowDims := [0]
  scatterDimsToOperandDims := [0]
  indexVectorDim := 1
  wf := scatter_S100000x1_S1350000x1_S1350000x1_1_0_0_1_wf

class Facts : Prop extends Facts₀ where

variable [Facts]
-- ==== Proof.KernelRun.lean ====
/-
  The idealized kernel program's run with its final memory read: @main is thirteen segments (host stretches and the two
  kernel regions), and after the last one every buffer that outlives a region holds the contents `Gen.W13`, the fold of
  the segments' effects from the launch memory. Every weakly fair execution terminates in such a state; the two result
  buffers and the argument buffers are among those buffers, so their final contents are `Gen.W13` read at them.
-/
import proofs.«132767_j76012331205217_1_alg».proof.Proof.Gen.KernelIdeal.Frame

set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and in its final memory every buffer that outlives a region holds
    what the last segment boundary's contents `W13` say. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- A buffer of @main that no region scopes, read in the final memory. -/
theorem final_at (b : Ref sig .tc) (hb : ¬ (Proc.devRef .tc b : DevRef τ sig).isScoped) :
    θ_run defs (onTc (τ := τ) (main (F := F))) ⟨m, fun _ => 0, ρ⟩ (fun r => ∀ c : Dev nD,
      r.2.mem ((c.tc : Thread nD τ).loc b) = W13 m ρ c (Proc.devRef .tc b)) :=
  (θ_run defs _ _).mono (fun r h c => h c _ (mem_uc b hb)) (run_final m ρ)

end Cert.KernelIdeal.Final

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«132767_j76012331205217_1_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.LibRowColumn.lean ====
/-
  Small layout and reduction readings for a `[a, b]` matrix whose columns are reduced, at indices given by coordinates.
  • A one-row matrix `[1, a]` cast to the column `[a, 1]` reads, at `(i, u)`, the row's entry `i`.
  • A `vector.multi_reduction <maximumf>` / `<add>` of a `[a, b]` matrix over its ROWS (axis 0), at column `c`: the fold of
    `max` from the accumulator, resp. the sum, over `k : Fin a` of the entries `(k, c)`.
  • The host's `stablehlo.reduce` of a `[a, b]` matrix over its COLUMNS (axis 1) with a maximum body, at row `r`: the fold of
    `max` from the initial value over `k : Fin b` of the entries `(r, k)`.
  • The f32 patterns `0xFF800000` and `0x3F800000` denote −∞ and 1; a maximum with −∞ and a quotient by 1 change nothing.
-/
import Idealize.ShloMosaic.PureOps.Ideal.Laws
import Idealize.ShloMosaic.Lib.Pipeline.Value
import Idealize.ShloMosaic.Lib.ValueIdx

namespace Idealize.ShloMosaic.RowColumn

open Idealize.ShloMosaic Idealize.ShloMosaic.ValueIdx

/-- A `[1, a]` array cast to the column `[a, 1]` reads, at `(i, u)`, the one row's entry `i`. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- Column `c` of a `[a, b]` matrix with row `k` put back is `(k, c)`. -/
theorem lift_rows {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- Row `r` of a `[a, b]` matrix with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext d; apply Fin.ext
  fin_cases d <;> rfl

variable {φ : FTy}

/-- The maximum down column `c` of a `[a, b]` matrix, as a kernel's `multi_reduction <maximumf>` over the rows computes it. -/
theorem multiReduction_maximumf_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (c : Fin b) :
    multiReduction .maximumf [0] ⟨1, ![b]⟩ src acc h hφ hacc (ix1 c)
      = (Finset.univ : Finset (Fin a)).fold max (Ideal.ofBits φ acc) (fun k => src (ix2 k c)) := by
  rw [Ideal.multiReduction_maximumf_single]
  exact congrArg (fun f => Finset.fold max (Ideal.ofBits φ acc) f (Finset.univ : Finset (Fin a)))
    (funext fun k => congrArg src (lift_rows h c k))

/-- The sum down column `c` of a `[a, b]` matrix, as a kernel's `multi_reduction <add>` over the rows computes it. -/
theorem multiReduction_add_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_rows h c k)

/-- The maximum along row `r` of a `[a, b]` matrix, as the host's `stablehlo.reduce` with a maximum body over the columns
    computes it from the initial value `init`. -/
theorem hostReduce_maximumf_cols {a b : ℕ} {u : Shape} (x : FVec Ideal ⟨2, ![a, b]⟩ φ) (init : FVec Ideal u φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_cols h r k))

/-- The f32 pattern `0xFF800000` denotes −∞. -/
theorem ofBits_negInf : Ideal.ofBits .f32 0xFF800000#32 = (⊥ : EReal) := by simp [Ideal.ofBits, Ideal.ieee]

/-- The maximum of −∞ and `y` is `y`. -/
theorem max_negInf (y : EReal) : max (Ideal.ofBits .f32 0xFF800000#32) y = y := by
  rw [ofBits_negInf]; exact max_bot_left y

/-- The f32 pattern `0x3F800000` denotes 1. -/
theorem ofBits_one : Ideal.ofBits .f32 0x3F800000#32 = (1 : EReal) := IdealRules.sign_bit.ideal_onePat .f32

/-- A quotient by 1 is the dividend, at the infinities too. -/
theorem div_one (y : EReal) : Ideal.div y (Ideal.ofBits .f32 0x3F800000#32) = y := by
  rw [ofBits_one, ← EReal.coe_one, Ideal.div_coe (by norm_num : (1 : ℝ) ≠ 0)]
  norm_num

end Idealize.ShloMosaic.RowColumn
-- ==== Proof.LibRowReduce.lean ====
/-
  Readings, at indices given by coordinates, of the operations a row-wise softmax kernel and its host reference meet beyond
  the column reductions of `LibRowColumn`:
  • a `vector.multi_reduction <maximumf>` / `<add>` of a `[a, b]` matrix ALONG its rows (axis 1), at row `r`: the fold of
    `max` from the accumulator, resp. the sum, over `k : Fin b` of the entries `(r, k)`;
  • the host's `stablehlo.reduce` with a maximum body of a `[B, L, N]` array over its last axis, at `(b, r)`: the fold of
    `max` from the initial value over `k : Fin N` of the entries `(b, r, k)`;
  • a `[n, k]` matrix transposed to `[k, n]` reads, at `(d, c)`, the entry `(c, d)`;
  • a `[1, a, b]` block cast to the matrix `[a, b]` reads, at `(r, c)`, the entry `(0, r, c)`, and back.
-/
import proofs.«132767_j76012331205217_1_alg».proof.Proof.LibRowColumn

namespace Idealize.ShloMosaic.RowReduce

open Idealize.ShloMosaic Idealize.ShloMosaic.ValueIdx

variable {φ : FTy}

/-- The maximum along row `r` of a `[a, b]` matrix, as a kernel's `multi_reduction <maximumf>` over the columns computes it. -/
theorem multiReduction_maximumf_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (RowColumn.lift_cols h r k))

/-- The sum along row `r` of a `[a, b]` matrix, as a kernel's `multi_reduction <add>` over the columns computes it. -/
theorem multiReduction_add_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (RowColumn.lift_cols h r k)

/-- Entry `(b, r)` of the reduced array with the last coordinate `k` put back is `(b, r, k)`. -/
theorem lift_last3 {B L N : ℕ} (h : (⟨3, ![B, L, N]⟩ : Shape).Reduces [2] (⟨2, ![B, L]⟩ : Shape)) (b : Fin B) (r : Fin L)
    (k : Fin ((⟨3, ![B, L, N]⟩ : Shape).size 2)) : h.lift (ix2 b r) k = ix3 b r (⟨k.val, k.isLt⟩ : Fin N) := by
  funext d; apply Fin.ext
  fin_cases d <;> rfl

/-- The maximum over the last axis of a `[B, L, N]` array at `(b, r)`, as the host's `stablehlo.reduce` with a maximum body
    computes it from the initial value `init`. -/
theorem hostReduce_maximumf_last3 {B L N : ℕ} {u : Shape} (x : FVec Ideal ⟨3, ![B, L, N]⟩ φ) (init : FVec Ideal u φ)
    (h' : (⟨3, ![B, L, N]⟩ : Shape).ReducesTo [2] (⟨2, ![B, L]⟩ : Shape))
    (h : (⟨3, ![B, L, N]⟩ : Shape).Reduces [2] (⟨2, ![B, L]⟩ : Shape)) (hu : 0 < u.numel) (b : Fin B) (r : Fin L) :
    Host.reduce FloatOps.maximumf x init h' hu (ix2 b r)
      = (Finset.univ : Finset (Fin N)).fold max (init (Shape.Idx.first hu)) (fun k => x (ix3 b r k)) := by
  rw [Host.reduce_eq_fold_single FloatOps.maximumf x init h' h hu]
  exact congrArg (fun f => Finset.fold max (init (Shape.Idx.first hu)) f (Finset.univ : Finset (Fin N)))
    (funext fun k => congrArg x (lift_last3 h b r k))

/-- A `[n, k]` matrix transposed to `[k, n]` reads, at `(d, c)`, the entry `(c, d)`. -/
theorem transpose_10_apply {α : Type} {n k : ℕ} (x : (⟨2, ![n, k]⟩ : Shape).Idx → α)
    (h : (⟨2, ![n, k]⟩ : Shape).Transposes [1, 0] ⟨2, ![k, n]⟩) (d : Fin k) (c : Fin n) :
    transpose ⟨2, ![k, n]⟩ [1, 0] x h (ix2 d c) = x (ix2 c d) :=
  transpose_apply [1, 0] x h (ix2 d c) (ix2 c d) (fun b => by
    match b with
    | ⟨0, _⟩ => rfl
    | ⟨1, _⟩ => rfl)

/-- A `[1, a, b]` block cast to the matrix `[a, b]` reads, at `(r, c)`, the block's entry `(0, r, c)`. -/
theorem shapeCast_1ab_ab_apply {α : Type} {a b : ℕ} (x : (⟨3, ![1, a, b]⟩ : Shape).Idx → α)
    (h : (⟨3, ![1, a, b]⟩ : Shape).ShapeCasts ⟨2, ![a, b]⟩) (r : Fin a) (c : Fin b) :
    shapeCast ⟨2, ![a, b]⟩ x h (ix2 r c) = x (ix3 (0 : Fin 1) r c) :=
  shapeCast_apply x h _ _ (by
    rw [Shape.rowMajor_val_three, Shape.rowMajor_val_two]
    show (0 * a + r.val) * b + c.val = r.val * b + c.val
    rw [Nat.zero_mul, Nat.zero_add])

end Idealize.ShloMosaic.RowReduce
-- ==== Proof.LibRowSumBroadcast.lean ====
/-
  A row sum kept along a unit axis and broadcast back, read at an index given by coordinates, over the extended reals.

  For a matrix `src` of shape `[a, b]`, the sum along each row taken into the zero accumulator (the f32 word `0x00000000`, with the
  accumulator's side condition stated as the equation `0x00000000 = 0x00000000` it is printed with):
    • `rowSum`: at row `r` it is `Σ_{k < b} src (r, k)`;
    • `colBroadcast`: kept as the column `[a, 1]` (a sum with `keepdims`) and broadcast to `[a, n]`, at `(p, q)` it is the sum along row `p`;
    • `rowBroadcast`: kept as the row `[1, a]` and broadcast to `[n, a]`, at `(p, q)` it is the sum along row `q`.
  Stated with the side conditions as hypotheses of exactly these types, the three rewrite a printed body directly.
  Needs `LibColumn.lean` and `LibRowReduce.lean` (with its `LibRowColumn.lean`) beside it.
-/
import proofs.«132767_j76012331205217_1_alg».proof.Proof.LibColumn
import proofs.«132767_j76012331205217_1_alg».proof.Proof.LibRowReduce
import Idealize.ShloMosaic.Lib.ValueLayout

noncomputable section

open scoped BigOperators

namespace Idealize.ShloMosaic.RowSumBroadcast

open Idealize.ShloMosaic Idealize.ShloMosaic.ValueIdx

/-- The sum along row `r` of a matrix, as a reduction into the zero accumulator computes it. -/
theorem rowSum {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) :=
  RowReduce.multiReduction_add_cols src _ h hφ hacc r

/-- A row sum kept as a column and broadcast along the other axis reads, at `(p, q)`, the sum along row `p`. -/
theorem colBroadcast {a b n : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32)
    (hc : (⟨1, ![a]⟩ : Shape).ShapeCasts ⟨2, ![a, 1]⟩) (hb : (⟨2, ![a, 1]⟩ : Shape).Broadcasts ⟨2, ![a, n]⟩) (p : Fin a) (q : Fin n) :
    broadcastTo ⟨2, ![a, n]⟩ (shapeCast ⟨2, ![a, 1]⟩ (multiReduction .add [1] ⟨1, ![a]⟩ src 0x00000000#32 h hφ hacc) hc) hb (ix2 p q)
      = ∑ k : Fin b, src (ix2 p k) := by
  rw [Column.broadcastTo_a1_ab_apply, Column.shapeCast_a_a1_apply, rowSum]

/-- A row sum kept as a row and broadcast along the other axis reads, at `(p, q)`, the sum along row `q`. -/
theorem rowBroadcast {a b n : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32)
    (hc : (⟨1, ![a]⟩ : Shape).ShapeCasts ⟨2, ![1, a]⟩) (hb : (⟨2, ![1, a]⟩ : Shape).Broadcasts ⟨2, ![n, a]⟩) (p : Fin n) (q : Fin a) :
    broadcastTo ⟨2, ![n, a]⟩ (shapeCast ⟨2, ![1, a]⟩ (multiReduction .add [1] ⟨1, ![a]⟩ src 0x00000000#32 h hφ hacc) hc) hb (ix2 p q)
      = ∑ k : Fin b, src (ix2 q k) := by
  rw [broadcastTo_1b_ab_apply, shapeCast_a_1a_apply, rowSum]

end Idealize.ShloMosaic.RowSumBroadcast

end
-- ==== Proof.EdgeCos.lean ====
/-
  The rectified cosine of two rows. For rows u, v of b extended reals,

      cosRow u v = max ( (Σ_k u_k·v_k) / ( max(√(Σ_k u_k²), ε) · max(√(Σ_k v_k²), ε) ), 0 ),

  with ε the f32 word 0x322BCC77 read exactly and the quotient the extended reals' own. Nothing here needs the rows to be
  finite: both programs compute this same expression, operation by operation.

  A kernel body gets each of the three sums as a lane reduction along the rows of an [a, b] block into a zero accumulator,
  kept as a column [a, 1]: read at (p, 0) it is the sum over the b entries of row p (`rowDot`).
-/
import Idealize.ShloMosaic.PureOps.Ideal.Laws
import Idealize.ShloMosaic.Lib.ValueIdx
import Idealize.ShloMosaic.Lib.Pipeline.Value
import proofs.«132767_j76012331205217_1_alg».proof.Proof.LibColumn
import proofs.«132767_j76012331205217_1_alg».proof.Proof.LibRowSumBroadcast

noncomputable section

namespace Cert.EdgeCos

open Idealize.ShloMosaic Idealize.ShloMosaic.ValueIdx
open scoped BigOperators

/-- The rectified cosine of two rows, each norm clamped below by the word 0x322BCC77. -/
def cosRow {b : ℕ} (u v : Fin b → EReal) : EReal :=
  max (Ideal.div (∑ k : Fin b, u k * v k)
        (max (Ideal.sqrt (∑ k : Fin b, u k * u k)) (Ideal.ofBits .f32 0x322BCC77#32)
          * max (Ideal.sqrt (∑ k : Fin b, v k * v k)) (Ideal.ofBits .f32 0x322BCC77#32)))
      (Ideal.ofBits .f32 0x00000000#32)

/-- The same with each sum started from the zero word, as a host reduction spells it: `0 + Σ`. -/
theorem cosRow_zero_add {b : ℕ} (u v : Fin b → EReal) :
    max (Ideal.div (Ideal.ofBits .f32 0x00000000#32 + ∑ k : Fin b, u k * v k)
        (max (Ideal.sqrt (Ideal.ofBits .f32 0x00000000#32 + ∑ k : Fin b, u k * u k)) (Ideal.ofBits .f32 0x322BCC77#32)
          * max (Ideal.sqrt (Ideal.ofBits .f32 0x00000000#32 + ∑ k : Fin b, v k * v k)) (Ideal.ofBits .f32 0x322BCC77#32)))
      (Ideal.ofBits .f32 0x00000000#32) = cosRow u v := by
  unfold cosRow
  rw [Ideal.ofBits_zero_f32, zero_add, zero_add, zero_add]

/-- A lane sum of the entrywise product of two [a, b] blocks (each first recast to its own shape) along the rows, kept
    as the column [a, 1], read at (p, 0): the dot product of the two rows p. -/
theorem rowDot {a b : ℕ} (x y : FVec Ideal ⟨2, ![a, b]⟩ .f32)
    (hs : (⟨2, ![a, b]⟩ : Shape).ShapeCasts ⟨2, ![a, b]⟩)
    (hr : (⟨2, ![a, b]⟩ : Shape).Reduces [1] (⟨1, ![a]⟩ : Shape))
    (hφ : FKind.Formats .f32) (hacc : (0x00000000#32 : BitVec 32) = 0x00000000#32)
    (hc : (⟨1, ![a]⟩ : Shape).ShapeCasts ⟨2, ![a, 1]⟩) (p : Fin a) (u : Fin 1) :
    shapeCast ⟨2, ![a, 1]⟩
        (multiReduction .add [1] ⟨1, ![a]⟩ (mulf (shapeCast ⟨2, ![a, b]⟩ x hs) (shapeCast ⟨2, ![a, b]⟩ y hs)) 0x00000000#32 hr hφ hacc)
        hc (ix2 p u)
      = ∑ k : Fin b, x (ix2 p k) * y (ix2 p k) := by
  rw [Column.shapeCast_a_a1_apply, RowSumBroadcast.rowSum]
  refine Finset.sum_congr rfl fun k _ => ?_
  rw [mulf_apply, shapeCast_self, shapeCast_self]

end Cert.EdgeCos

end
-- ==== Proof.Payloads.lean ====
/-
  What each kernel body stores, entry by entry, over the extended reals.

  The first body takes a block x of 10000 rows, the 64×64 matrix w and the bias row b, and stores tanh(x·w + b): entry
  (p, q) is tanh(Σ_k x(p,k)·w(k,q) + b(0,q)) — rounding an operand to bf16 is the identity here, the matrix unit's product
  into a zero accumulator is the plain finite sum, and the bias row is repeated down the rows.

  The second body takes two blocks of 8192 rows and stores, as a column, the rectified cosine of row p of the first with
  row p of the second (`EdgeCos.cosRow`): entry (p, 0) reads row p of each block only.
-/
import proofs.«132767_j76012331205217_1_alg».proof.Proof.Gen.KernelIdeal.Skeleton
import proofs.«132767_j76012331205217_1_alg».proof.Proof.LibAffine
import proofs.«132767_j76012331205217_1_alg».proof.Proof.EdgeCos

noncomputable section

namespace Cert.KernelIdeal.Payload

open Cert.KernelIdeal Cert.KernelIdeal.Gen
open Idealize.ShloMosaic Idealize.ShloMosaic.ValueIdx
open scoped BigOperators

/-- Entry (p, q) of the block the first body stores. -/
theorem tanh_block_apply (x0 : Vec Ideal S10000x64 .f32) (x1 : Vec Ideal S64x64 .f32) (x2 : Vec Ideal S1x64 .f32)
    (p : Fin 10000) (q : Fin 64) :
    k0_pay1 (F := Ideal) x0 x1 x2 (ix2 p q)
      = Ideal.tanh ((∑ k : Fin 64, x0 (ix2 p k) * x1 (ix2 k q)) + x2 (ix2 (0 : Fin 1) q)) := by
  unfold k0_pay1
  refine congrArg Ideal.tanh ?_
  refine (Affine.body_apply none x0 (truncf .bf16 (shapeCast S64x64 x1 shapeCasts_S64x64_S64x64) bitsLt_bf16_f32)
    (shapeCast S1x64 x2 shapeCasts_S1x64_S1x64) bitsLt_bf16_f32 broadcasts_S1x64_S10000x64 p q).trans ?_
  rw [Affine.affine_ix2]
  simp only [truncf_apply, shapeCast_self]

/-- Entry (p, 0) of the column the second body stores: the rectified cosine of the two blocks' rows p. -/
theorem cos_block_apply (x0 x1 : Vec Ideal S8192x64 .f32) (p : Fin 8192) (u : Fin 1) :
    k1_pay1 (F := Ideal) x0 x1 (ix2 p u) = EdgeCos.cosRow (fun k => x0 (ix2 p k)) (fun k => x1 (ix2 p k)) := by
  unfold k1_pay1 EdgeCos.cosRow
  refine congrArg₂ max (congrArg₂ Ideal.div ?_
    (congrArg₂ (fun a b : EReal => a * b) (congrArg₂ max (congrArg Ideal.sqrt ?_) rfl) (congrArg₂ max (congrArg Ideal.sqrt ?_) rfl))) rfl
  · exact EdgeCos.rowDot x0 x1 shapeCasts_S8192x64_S8192x64 reduces_S8192x64_S8192 (.inl rfl) rfl shapeCasts_S8192_S8192x1 p u
  · exact EdgeCos.rowDot x0 x0 shapeCasts_S8192x64_S8192x64 reduces_S8192x64_S8192 (.inl rfl) rfl shapeCasts_S8192_S8192x1 p u
  · exact EdgeCos.rowDot x1 x1 shapeCasts_S8192x64_S8192x64 reduces_S8192x64_S8192 (.inl rfl) rfl shapeCasts_S8192_S8192x1 p u

end Cert.KernelIdeal.Payload

end
-- ==== Proof.RegionArrays.lean ====
/-
  What each kernel region leaves in its output array, as one function of the arrays the region is entered with.

  Region 0 runs over ten blocks of 10000 rows: point t reads rows 10000·t … 10000·t+9999 of the input, the whole weight
  matrix and the whole bias row, and writes the same rows of the output. Since entry (p, q) of a block depends on row p of
  the input block only, the output array is, entry by entry, `hidden`: tanh(Σ_k X(r,k)·W(k,q) + b(0,q)).

  Region 1 runs over 153 blocks of 8192 rows of two [1253376, 64] arrays and writes the column [1253376, 1] whose entry
  (r, 0) is the rectified cosine of the two arrays' rows r (`cosArr`).

  Both are stated at any contents `V` of the core's buffers at the region's entry.
-/
import proofs.«132767_j76012331205217_1_alg».proof.Proof.Gen.KernelIdeal.Frame
import proofs.«132767_j76012331205217_1_alg».proof.Proof.Payloads
import Idealize.ShloMosaic.Lib.Pipeline.Value

set_option maxRecDepth 16384

noncomputable section

namespace Cert.KernelIdeal.Arrays

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-! ## Region 0: the hidden layer -/

/-- tanh of rows times weights plus the bias row, entry by entry. -/
def hidden (X : FVec Ideal S100000x64 .f32) (W : FVec Ideal S64x64 .f32) (b : FVec Ideal S1x64 .f32) : FVec Ideal S100000x64 .f32 :=
  fun i => Ideal.tanh ((∑ k : Fin 64, X (ix2 ⟨(i 0).val, idx2_lt0 i⟩ k) * W (ix2 k ⟨(i 1).val, idx2_lt1 i⟩))
    + b (ix2 (0 : Fin 1) ⟨(i 1).val, idx2_lt1 i⟩))

theorem hidden_ix2 (X : FVec Ideal S100000x64 .f32) (W : FVec Ideal S64x64 .f32) (b : FVec Ideal S1x64 .f32)
    (r : Fin 100000) (q : Fin 64) :
    hidden X W b (ix2 r q) = Ideal.tanh ((∑ k : Fin 64, X (ix2 r k) * W (ix2 k q)) + b (ix2 (0 : Fin 1) q)) := rfl

/-- The printed index maps of region 0, decided over its ten points: the row-blocked windows sit at block (t, 0), the
    weight matrix and the bias row at block (0, 0). -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt0 (t : Fin cfg0.N) : t.val < 10 := Nat.lt_of_lt_of_eq t.isLt (show cfg0.N = 10 from N_0)

/-- Point t's block of the input rows: rows 10000·t + p. -/
theorem rows0_apply (c : Dev nD) (t : Fin cfg0.N) (p : Fin 10000) (k : Fin 64) (h : 10000 * t.val + p.val < 100000) :
    (iblk0 V c 0 t : Vec Ideal S10000x64 .f32) (ix2 p k)
      = (V c main_arg0 : FVec Ideal S100000x64 .f32) (ix2 ⟨10000 * t.val + p.val, h⟩ k) := by
  obtain ⟨e0, e1, -⟩ := index0 t
  show V c main_arg0 (((cfg0.win 0).blk t).view.emb (ix2 p k)) = V c main_arg0 _
  congr 1
  funext a
  apply Fin.ext
  match a with
  | ⟨0, _⟩ => show win0_0.index t (0 : Fin 2) * 10000 + 1 * p.val = 10000 * t.val + p.val; rw [e0]; omega
  | ⟨1, _⟩ => show win0_0.index t (1 : Fin 2) * 64 + 1 * k.val = k.val; rw [e1]; omega

/-- Every point's block of the weight matrix is the matrix. -/
theorem weights0_apply (c : Dev nD) (t : Fin cfg0.N) (k q : Fin 64) :
    (iblk0 V c 1 t : Vec Ideal S64x64 .f32) (ix2 k q) = (V c main_v4 : FVec Ideal S64x64 .f32) (ix2 k q) := by
  obtain ⟨-, -, e2, e3, -⟩ := index0 t
  show V c main_v4 (((cfg0.win 1).blk t).view.emb (ix2 k q)) = V c main_v4 _
  congr 1
  funext a
  apply Fin.ext
  match a with
  | ⟨0, _⟩ => show win0_1.index t (0 : Fin 2) * 64 + 1 * k.val = k.val; rw [e2]; omega
  | ⟨1, _⟩ => show win0_1.index t (1 : Fin 2) * 64 + 1 * q.val = q.val; rw [e3]; omega

/-- Every point's block of the bias row is the row. -/
theorem bias0_apply (c : Dev nD) (t : Fin cfg0.N) (u : Fin 1) (q : Fin 64) :
    (iblk0 V c 2 t : Vec Ideal S1x64 .f32) (ix2 u q) = (V c main_v5 : FVec Ideal S1x64 .f32) (ix2 u q) := by
  obtain ⟨-, -, -, -, e4, e5, -⟩ := index0 t
  show V c main_v5 (((cfg0.win 2).blk t).view.emb (ix2 u q)) = V c main_v5 _
  congr 1
  funext a
  apply Fin.ext
  match a with
  | ⟨0, _⟩ => show win0_2.index t (0 : Fin 2) * 1 + 1 * u.val = u.val; rw [e4]; omega
  | ⟨1, _⟩ => show win0_2.index t (1 : Fin 2) * 64 + 1 * q.val = q.val; rw [e5]; omega

/-- What point t writes back is block t of `hidden` of the entry arrays. -/
theorem flushed0 (c : Dev nD) (t : Fin cfg0.N) :
    (dat0 V c).flushed 3 t
      = ((cfg0.win 3).blk t).view.read (Elt Ideal) (hidden (V c main_arg0) (V c main_v4) (V c main_v5)) := by
  show (cfg0.win 3).cut (grid0.coords t) ((dat0 V c).after 3 t) = _
  rw [after0_3]
  unfold out0_3
  rw [View.canon_unit_zero hz]
  simp only [View.ld_unit_zero (S := S10000x64) hz, View.ld_unit_zero (S := S64x64) hz, View.ld_unit_zero (S := S1x64) hz]
  obtain ⟨-, -, -, -, -, -, e6, e7⟩ := index0 t
  have ht := lt0 t
  funext j
  obtain ⟨p, q, rfl⟩ : ∃ (p : Fin 10000) (q : Fin 64), j = ix2 p q := ⟨j 0, j 1, eq_ix2 j⟩
  have hp := p.isLt
  have hemb : ((cfg0.win 3).blk t).view.emb (ix2 p q) = (ix2 ⟨10000 * t.val + p.val, by omega⟩ q : S100000x64.Idx) := by
    funext a
    apply Fin.ext
    match a with
    | ⟨0, _⟩ => show win0_3.index t (0 : Fin 2) * 10000 + 1 * p.val = 10000 * t.val + p.val; rw [e6]; omega
    | ⟨1, _⟩ => show win0_3.index t (1 : Fin 2) * 64 + 1 * q.val = q.val; rw [e7]; omega
  refine (Payload.tanh_block_apply _ _ _ p q).trans ?_
  refine Eq.trans ?_ (congrArg (hidden (V c main_arg0) (V c main_v4) (V c main_v5)) hemb.symm)
  rw [hidden_ix2]
  refine congrArg Ideal.tanh (congrArg₂ (fun a b : EReal => a + b) (Finset.sum_congr rfl fun k _ =>
    congrArg₂ (fun a b : EReal => a * b) ?_ ?_) ?_)
  · exact rows0_apply V c t p k (by omega)
  · exact weights0_apply V c t k q
  · exact bias0_apply V c t 0 q

/-- An index of the output array is in point t's block iff its row is among the block's 10000 rows. -/
theorem mem_blk0 (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v6).slice (win0_3.rect t)).set ↔ _
  rw [View.set_slice_whole, Rect.mem_set_unit]
  exact Iff.rfl

/-- The ten blocks tile the output array: row r is in block r / 10000. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : (i 0).val / 10000 < cfg0.N := by rw [show cfg0.N = 10 from N_0]; omega
  refine ⟨⟨(i 0).val / 10000, hN⟩, flush0_3 _, ?_⟩
  rw [mem_blk0]
  obtain ⟨-, -, -, -, -, -, e6, e7⟩ := index0 ⟨(i 0).val / 10000, hN⟩
  intro a
  match a with
  | ⟨0, _⟩ =>
    show win0_3.index ⟨(i 0).val / 10000, hN⟩ (0 : Fin 2) * 10000 ≤ (i 0).val
      ∧ (i 0).val < win0_3.index ⟨(i 0).val / 10000, hN⟩ (0 : Fin 2) * 10000 + 10000
    rw [e6]; show (i 0).val / 10000 * 10000 ≤ (i 0).val ∧ (i 0).val < (i 0).val / 10000 * 10000 + 10000; omega
  | ⟨1, _⟩ =>
    show win0_3.index ⟨(i 0).val / 10000, hN⟩ (1 : Fin 2) * 64 ≤ (i 1).val
      ∧ (i 1).val < win0_3.index ⟨(i 0).val / 10000, hN⟩ (1 : Fin 2) * 64 + 64
    rw [e7]; omega

/-- Region 0's output array after its last point. -/
theorem array0 (c : Dev nD) :
    (dat0 V c).arrAt 3 cfg0.N = hidden (V c main_arg0) (V c main_v4) (V c main_v5) :=
  (dat0 V c).arrAt_eq_of_cover 3 (hidden (V c main_arg0) (V c main_v4) (V c main_v5))
    (fun t _ => flushed0 V c t) (fun i => cover0 i)

/-! ## Region 1: the rectified cosines -/

/-- The column of rectified cosines of the rows of two arrays. -/
def cosArr (hs hd : FVec Ideal S1253376x64 .f32) : FVec Ideal S1253376x1 .f32 :=
  fun i => EdgeCos.cosRow (fun k : Fin 64 => hs (ix2 ⟨(i 0).val, idx2_lt0 i⟩ k)) (fun k : Fin 64 => hd (ix2 ⟨(i 0).val, idx2_lt0 i⟩ k))

theorem cosArr_ix2 (hs hd : FVec Ideal S1253376x64 .f32) (r : Fin 1253376) (u : Fin 1) :
    cosArr hs hd (ix2 r u) = EdgeCos.cosRow (fun k : Fin 64 => hs (ix2 r k)) (fun k : Fin 64 => hd (ix2 r k)) := rfl

/-- The printed index maps of region 1, decided over its 153 points: every window sits at block (t, 0). -/
theorem index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

theorem lt1 (t : Fin cfg1.N) : t.val < 153 := Nat.lt_of_lt_of_eq t.isLt (show cfg1.N = 153 from N_1)

/-- Point t's block of the first array: rows 8192·t + p. -/
theorem rows1_0_apply (c : Dev nD) (t : Fin cfg1.N) (p : Fin 8192) (k : Fin 64) (h : 8192 * t.val + p.val < 1253376) :
    (iblk1 V c 0 t : Vec Ideal S8192x64 .f32) (ix2 p k)
      = (V c main_v15 : FVec Ideal S1253376x64 .f32) (ix2 ⟨8192 * t.val + p.val, h⟩ k) := by
  obtain ⟨e0, e1, -⟩ := index1 t
  show V c main_v15 (((cfg1.win 0).blk t).view.emb (ix2 p k)) = V c main_v15 _
  congr 1
  funext a
  apply Fin.ext
  match a with
  | ⟨0, _⟩ => show win1_0.index t (0 : Fin 2) * 8192 + 1 * p.val = 8192 * t.val + p.val; rw [e0]; omega
  | ⟨1, _⟩ => show win1_0.index t (1 : Fin 2) * 64 + 1 * k.val = k.val; rw [e1]; omega

/-- Point t's block of the second array: rows 8192·t + p. -/
theorem rows1_1_apply (c : Dev nD) (t : Fin cfg1.N) (p : Fin 8192) (k : Fin 64) (h : 8192 * t.val + p.val < 1253376) :
    (iblk1 V c 1 t : Vec Ideal S8192x64 .f32) (ix2 p k)
      = (V c main_v22 : FVec Ideal S1253376x64 .f32) (ix2 ⟨8192 * t.val + p.val, h⟩ k) := by
  obtain ⟨-, -, e2, e3, -⟩ := index1 t
  show V c main_v22 (((cfg1.win 1).blk t).view.emb (ix2 p k)) = V c main_v22 _
  congr 1
  funext a
  apply Fin.ext
  match a with
  | ⟨0, _⟩ => show win1_1.index t (0 : Fin 2) * 8192 + 1 * p.val = 8192 * t.val + p.val; rw [e2]; omega
  | ⟨1, _⟩ => show win1_1.index t (1 : Fin 2) * 64 + 1 * k.val = k.val; rw [e3]; omega

/-- What point t writes back is block t of `cosArr` of the entry arrays. -/
theorem flushed1 (c : Dev nD) (t : Fin cfg1.N) :
    (dat1 V c).flushed 2 t = ((cfg1.win 2).blk t).view.read (Elt Ideal) (cosArr (V c main_v15) (V c main_v22)) := by
  show (cfg1.win 2).cut (grid1.coords t) ((dat1 V c).after 2 t) = _
  rw [after1_2]
  unfold out1_2
  rw [View.canon_unit_zero hz]
  simp only [View.ld_unit_zero (S := S8192x64) hz]
  obtain ⟨-, -, -, -, e4, e5⟩ := index1 t
  have ht := lt1 t
  funext j
  obtain ⟨p, u, rfl⟩ : ∃ (p : Fin 8192) (u : Fin 1), j = ix2 p u := ⟨j 0, j 1, eq_ix2 j⟩
  have hp := p.isLt
  have hu := u.isLt
  have hemb : ((cfg1.win 2).blk t).view.emb (ix2 p u) = (ix2 ⟨8192 * t.val + p.val, by omega⟩ u : S1253376x1.Idx) := by
    funext a
    apply Fin.ext
    match a with
    | ⟨0, _⟩ => show win1_2.index t (0 : Fin 2) * 8192 + 1 * p.val = 8192 * t.val + p.val; rw [e4]; omega
    | ⟨1, _⟩ => show win1_2.index t (1 : Fin 2) * 1 + 1 * u.val = u.val; rw [e5]; omega
  refine (Payload.cos_block_apply _ _ p u).trans ?_
  refine Eq.trans ?_ (congrArg (cosArr (V c main_v15) (V c main_v22)) hemb.symm)
  rw [cosArr_ix2]
  refine congrArg₂ EdgeCos.cosRow (funext fun k => ?_) (funext fun k => ?_)
  · exact rows1_0_apply V c t p k (by omega)
  · exact rows1_1_apply V c t p k (by omega)

theorem mem_blk1 (t : Fin cfg1.N) (i : S1253376x1.Idx) :
    i ∈ ((cfg1.win 2).blk t).view.set ↔ ∀ a : Fin 2, win1_2.index t a * S8192x1.size a ≤ (i a).val
      ∧ (i a).val < win1_2.index t a * S8192x1.size a + S8192x1.size a := by
  show i ∈ ((View.whole main_v23).slice (win1_2.rect t)).set ↔ _
  rw [View.set_slice_whole, Rect.mem_set_unit]
  exact Iff.rfl

/-- The 153 blocks tile the column: row r is in block r / 8192. -/
theorem cover1 (i : S1253376x1.Idx) : ∃ t : Fin cfg1.N, (cfg1.win 2).flush t = true ∧ i ∈ ((cfg1.win 2).blk t).view.set := by
  have hi0 : (i 0).val < 1253376 := (i 0).isLt
  have hi1 : (i 1).val < 1 := (i 1).isLt
  have hN : (i 0).val / 8192 < cfg1.N := by rw [show cfg1.N = 153 from N_1]; omega
  refine ⟨⟨(i 0).val / 8192, hN⟩, flush1_2 _, ?_⟩
  rw [mem_blk1]
  obtain ⟨-, -, -, -, e4, e5⟩ := index1 ⟨(i 0).val / 8192, hN⟩
  intro a
  match a with
  | ⟨0, _⟩ =>
    show win1_2.index ⟨(i 0).val / 8192, hN⟩ (0 : Fin 2) * 8192 ≤ (i 0).val
      ∧ (i 0).val < win1_2.index ⟨(i 0).val / 8192, hN⟩ (0 : Fin 2) * 8192 + 8192
    rw [e4]; show (i 0).val / 8192 * 8192 ≤ (i 0).val ∧ (i 0).val < (i 0).val / 8192 * 8192 + 8192; omega
  | ⟨1, _⟩ =>
    show win1_2.index ⟨(i 0).val / 8192, hN⟩ (1 : Fin 2) * 1 ≤ (i 1).val
      ∧ (i 1).val < win1_2.index ⟨(i 0).val / 8192, hN⟩ (1 : Fin 2) * 1 + 1
    rw [e5]; omega

/-- Region 1's output array after its last point. -/
theorem array1 (c : Dev nD) :
    (dat1 V c).arrAt 2 cfg1.N = cosArr (V c main_v15) (V c main_v22) :=
  (dat1 V c).arrAt_eq_of_cover 2 (cosArr (V c main_v15) (V c main_v22))
    (fun t _ => flushed1 V c t) (fun i => cover1 i)

end Cert.KernelIdeal.Arrays

end
-- ==== Proof.LibLeadingAxis.lean ====
/-
  Gather and accumulating scatter along the LEADING axis, read at coordinates (any extents).

  A start index is one scalar per update row: the indices are an array [E, 1] whose second axis is the index vector.
  * gather of a vector [N] (result [E]) and of the rows of a matrix [N, C] (result [E, C]): entry e (or (e, f)) is the
    operand at row clampRow (idx (e, 0)) (and column f): the start read signed and clamped into [0, N-1];
  * scatter-add into a vector [N] from updates [E], and into a matrix [N, C] from update rows [E, C], at the ideal
    instance: entry n (or (n, f)) is the operand's entry plus the sum over e of the updates whose start index, read
    signed and NOT clamped, is exactly n; an update whose index is outside [0, N) adds nothing.
-/
import Idealize.ShloMosaic.Lib.ValueIdx
import Idealize.ShloMosaic.PureOps.Ideal.Laws

noncomputable section

namespace Idealize.ShloMosaic.LeadingAxis

open Idealize.ShloMosaic Idealize.ShloMosaic.ValueIdx

/-- The row a start index names for a gather: read as a signed integer and clamped into [0, N-1]. -/
def clampRow (N : Nat) (hN : 0 < N) {w : Nat} (b : BitVec w) : Fin N := ⟨min b.toInt.toNat (N - 1), by omega⟩

/-- A sum over the index set of a rank-1 shape is the sum over its one coordinate. -/
theorem sum_idx1 {M : Type*} [AddCommMonoid M] {n : Nat} (g : (⟨1, ![n]⟩ : Shape).Idx → M) :
    ∑ i, g i = ∑ a : Fin n, g (ix1 a) := by
  refine Fintype.sum_equiv ⟨fun i => i 0, fun a => ix1 a, fun i => (eq_ix1 i).symm, fun _ => rfl⟩ _ _ (fun i => ?_)
  exact congrArg g (eq_ix1 i)

/-! ## Gather -/

section Gather
variable {α : Type}

/-- x[idx] for a vector x : [N] and indices [E, 1]. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e 0)))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- x[idx] for the rows of a matrix x : [N, C] and indices [E, 1]. -/
abbrev rowGatherDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem rowg_start0 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowGatherDims N C E wf).start (ix2 e f) idx (0 : Fin 2) = min (idx (ix2 e 0)).toInt.toNat (N - 1) := by
  unfold GatherDims.start
  rw [dif_pos (show (0 : Fin 2) ∈ (rowGatherDims N C E wf).startIndexMap from List.mem_singleton.mpr rfl)]
  have hsi : (rowGatherDims N C E wf).siIdx (ix2 e f) ⟨List.idxOf (0 : Fin 2) (rowGatherDims N C E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

theorem rowg_start1 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowGatherDims N C E wf).start (ix2 e f) idx (1 : Fin 2) = 0 := by
  unfold GatherDims.start
  rw [dif_neg (show (1 : Fin 2) ∉ (rowGatherDims N C E wf).startIndexMap from by
    intro h; exact absurd (List.mem_singleton.mp h) (by simp))]

theorem rowg_off0 {N C E : Nat}
    (wf : GatherDims.WF ⟨2, ![N, C]⟩ ⟨2, ![E, 1]⟩ ⟨2, ![E, C]⟩ [1] [0] [] [0] [] 1 ![1, C])
    (e : Fin E) (f : Fin C) : (rowGatherDims N C E wf).offCoord (ix2 e f) (0 : Fin 2) = 0 :=
  GatherDims.offCoord_eq_zero _ _ _ (fun h => ((GatherDims.mem_sKept _ _).mp h).1 (List.mem_singleton.mpr rfl))

theorem rowg_off1 {N C E : Nat}
    (wf : GatherDims.WF ⟨2, ![N, C]⟩ ⟨2, ![E, 1]⟩ ⟨2, ![E, C]⟩ [1] [0] [] [0] [] 1 ![1, C])
    (e : Fin E) (f : Fin C) : (rowGatherDims N C E wf).offCoord (ix2 e f) (1 : Fin 2) = f.val := by
  unfold GatherDims.offCoord
  rw [dif_pos ((GatherDims.mem_sKept _ _).mpr ⟨fun h => absurd (List.mem_singleton.mp h) (by simp), List.not_mem_nil⟩)]
  rfl

theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowGatherDims N C E wf) x idx (ix2 e f) = x (ix2 (clampRow N hN (idx (ix2 e 0))) f) := by
  unfold Host.gather
  congr 1
  funext a
  refine Fin.ext ?_
  match a with
  | ⟨0, _⟩ =>
    show (rowGatherDims N C E wf).start (ix2 e f) idx (0 : Fin 2) + (rowGatherDims N C E wf).batchCoord (ix2 e f) (0 : Fin 2)
      + (rowGatherDims N C E wf).offCoord (ix2 e f) (0 : Fin 2) = min (idx (ix2 e 0)).toInt.toNat (N - 1)
    rw [GatherDims.batchCoord_eq_zero _ _ _ List.not_mem_nil, rowg_start0, rowg_off0, Nat.add_zero]
  | ⟨1, _⟩ =>
    show (rowGatherDims N C E wf).start (ix2 e f) idx (1 : Fin 2) + (rowGatherDims N C E wf).batchCoord (ix2 e f) (1 : Fin 2)
      + (rowGatherDims N C E wf).offCoord (ix2 e f) (1 : Fin 2) = f.val
    rw [GatherDims.batchCoord_eq_zero _ _ _ List.not_mem_nil, rowg_start1, rowg_off1, Nat.add_zero, Nat.zero_add]

end Gather

/-! ## Scatter-add at the ideal instance -/

section Scatter
variable {φ : FTy}

/-- zeros[N].at[idx].add(upd) for updates [E] and indices [E, 1]. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vec_start {N E w : Nat} (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx (0 : Fin 1) = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem vec_window {N E : Nat} (wf : ScatterDims.WF ⟨1, ![N]⟩ ⟨2, ![E, 1]⟩ ⟨1, ![E]⟩ [] [0] [0] 1) (e : Fin E) :
    (vecScatterDims N E wf).window (ix1 e) (0 : Fin 1) = 0 := by
  unfold ScatterDims.window
  rw [dif_neg (show (0 : Fin 1) ∉ (vecScatterDims N E wf).sKept from fun h =>
    (List.mem_filter.mp h).2 |> fun h2 => by simp at h2)]

/-- Update e lands on entry n exactly when its start index, read signed, is n. -/
theorem vec_lands_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n) ↔ (idx (ix2 e 0)).toInt = (n.val : Int) := by
  unfold ScatterDims.resultIdx?
  split
  · rename_i h
    rw [Option.some.injEq]
    constructor
    · intro heq
      have h0 := congrArg (fun (i : (⟨1, ![N]⟩ : Shape).Idx) => (i 0).val) heq
      simp only [vec_start, vec_window] at h0
      have := (h 0).1
      rw [vec_start, vec_window] at this
      show (idx (ix2 e 0)).toInt = ((n.val : Nat) : Int)
      have hn : ((ix1 n : (⟨1, ![N]⟩ : Shape).Idx) 0).val = n.val := rfl
      omega
    · intro ht
      funext a
      obtain rfl : a = 0 := Subsingleton.elim _ _
      refine Fin.ext ?_
      show ((vecScatterDims N E wf).start (ix1 e) idx 0 + ((vecScatterDims N E wf).window (ix1 e) 0 : Nat)).toNat = n.val
      rw [vec_start, vec_window, ht]
      simp
  · rename_i h
    constructor
    · intro heq; exact absurd heq (by simp)
    · intro ht
      refine absurd (fun a => ?_) h
      obtain rfl : a = 0 := Subsingleton.elim _ _
      rw [vec_start, vec_window, ht]
      have : n.val < N := n.isLt
      constructor
      · simp
      · show ((n.val : Int) + ((0 : Nat) : Int)) < ((N : Nat) : Int)
        omega

theorem scatterAdd_vec_apply {N E w : Nat} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatterDims N E wf) x idx upd (ix1 n)
      = x (ix1 n) + ∑ e : Fin E, if (idx (ix2 e 0)).toInt = (n.val : Int) then upd (ix1 e) else 0 := by
  show Ideal.hostScatterAdd (vecScatterDims N E wf) x idx upd (ix1 n) = _
  unfold Ideal.hostScatterAdd
  congr 1
  rw [Finset.sum_filter, sum_idx1]
  refine Finset.sum_congr rfl (fun e _ => ?_)
  simp only [vec_lands_iff]

/-- zeros[N, C].at[idx].add(upd) for update rows [E, C] and indices [E, 1]. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem row_start0 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (rowScatterDims N C E wf).start (ix2 e f) idx (0 : Fin 2) = (idx (ix2 e 0)).toInt := by
  unfold ScatterDims.start
  rw [dif_pos (show (0 : Fin 2) ∈ (rowScatterDims N C E wf).scatterDimsToOperandDims from List.mem_singleton.mpr rfl)]
  have hsi : (rowScatterDims N C E wf).siIdx (ix2 e f) ⟨List.idxOf (0 : Fin 2) (rowScatterDims N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem row_start1 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (rowScatterDims N C E wf).start (ix2 e f) idx (1 : Fin 2) = 0 := by
  unfold ScatterDims.start
  rw [dif_neg (show (1 : Fin 2) ∉ (rowScatterDims N C E wf).scatterDimsToOperandDims from fun h =>
    absurd (List.mem_singleton.mp h) (by simp))]

theorem row_window0 {N C E : Nat} (wf : ScatterDims.WF ⟨2, ![N, C]⟩ ⟨2, ![E, 1]⟩ ⟨2, ![E, C]⟩ [1] [0] [0] 1)
    (e : Fin E) (f : Fin C) : (rowScatterDims N C E wf).window (ix2 e f) (0 : Fin 2) = 0 := by
  unfold ScatterDims.window
  rw [dif_neg (show (0 : Fin 2) ∉ (rowScatterDims N C E wf).sKept from fun h =>
    (List.mem_filter.mp h).2 |> fun h2 => by simp at h2)]

theorem row_window1 {N C E : Nat} (wf : ScatterDims.WF ⟨2, ![N, C]⟩ ⟨2, ![E, 1]⟩ ⟨2, ![E, C]⟩ [1] [0] [0] 1)
    (e : Fin E) (f : Fin C) : (rowScatterDims N C E wf).window (ix2 e f) (1 : Fin 2) = f.val := by
  unfold ScatterDims.window
  rw [dif_pos (show (1 : Fin 2) ∈ (rowScatterDims N C E wf).sKept from
    List.mem_filter.mpr ⟨List.mem_finRange _, by simp⟩)]
  rfl

/-- Update (e, f') lands on entry (n, f) exactly when row e's start index, read signed, is n, and f' = f. -/
theorem row_lands_iff {N C E w : Nat} (wf : ScatterDims.WF ⟨2, ![N, C]⟩ ⟨2, ![E, 1]⟩ ⟨2, ![E, C]⟩ [1] [0] [0] 1)
    (idx : IVec ⟨2, ![E, 1]⟩ w) (e : Fin E) (f' : Fin C) (n : Fin N) (f : Fin C) :
    (rowScatterDims N C E wf).resultIdx? (ix2 e f') idx = some (ix2 n f)
      ↔ (idx (ix2 e 0)).toInt = (n.val : Int) ∧ f' = f := by
  unfold ScatterDims.resultIdx?
  split
  · rename_i h
    rw [Option.some.injEq]
    constructor
    · intro heq
      have h0 := congrArg (fun (i : (⟨2, ![N, C]⟩ : Shape).Idx) => (i 0).val) heq
      have h1 := congrArg (fun (i : (⟨2, ![N, C]⟩ : Shape).Idx) => (i 1).val) heq
      simp only [row_start0, row_window0, row_start1, row_window1] at h0 h1
      have hp := (h 0).1
      rw [row_start0, row_window0] at hp
      have hn : ((ix2 n f : (⟨2, ![N, C]⟩ : Shape).Idx) 0).val = n.val := rfl
      have hf : ((ix2 n f : (⟨2, ![N, C]⟩ : Shape).Idx) 1).val = f.val := rfl
      refine ⟨?_, Fin.ext ?_⟩
      · show (idx (ix2 e 0)).toInt = ((n.val : Nat) : Int)
        omega
      · omega
    · rintro ⟨ht, rfl⟩
      funext a
      refine Fin.ext ?_
      match a with
      | ⟨0, _⟩ =>
        show ((rowScatterDims N C E wf).start (ix2 e f') idx 0 + ((rowScatterDims N C E wf).window (ix2 e f') 0 : Nat)).toNat = n.val
        rw [row_start0, row_window0, ht]; simp
      | ⟨1, _⟩ =>
        show ((rowScatterDims N C E wf).start (ix2 e f') idx 1 + ((rowScatterDims N C E wf).window (ix2 e f') 1 : Nat)).toNat = f'.val
        rw [row_start1, row_window1]; simp
  · rename_i h
    constructor
    · intro heq; exact absurd heq (by simp)
    · rintro ⟨ht, rfl⟩
      refine absurd (fun a => ?_) h
      match a with
      | ⟨0, _⟩ =>
        show 0 ≤ (rowScatterDims N C E wf).start (ix2 e f') idx 0 + ((rowScatterDims N C E wf).window (ix2 e f') 0 : Nat)
          ∧ (rowScatterDims N C E wf).start (ix2 e f') idx 0 + ((rowScatterDims N C E wf).window (ix2 e f') 0 : Nat) < ((N : Nat) : Int)
        rw [row_start0, row_window0, ht]
        have : n.val < N := n.isLt
        constructor <;> simp <;> omega
      | ⟨1, _⟩ =>
        show 0 ≤ (rowScatterDims N C E wf).start (ix2 e f') idx 1 + ((rowScatterDims N C E wf).window (ix2 e f') 1 : Nat)
          ∧ (rowScatterDims N C E wf).start (ix2 e f') idx 1 + ((rowScatterDims N C E wf).window (ix2 e f') 1 : Nat) < ((C : Nat) : Int)
        rw [row_start1, row_window1]
        have : f'.val < C := f'.isLt
        constructor <;> simp <;> omega

theorem scatterAdd_rows_apply {N C E w : Nat} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (f : Fin C) :
    Host.scatterAdd (rowScatterDims N C E wf) x idx upd (ix2 n f)
      = x (ix2 n f) + ∑ e : Fin E, if (idx (ix2 e 0)).toInt = (n.val : Int) then upd (ix2 e f) else 0 := by
  show Ideal.hostScatterAdd (rowScatterDims N C E wf) x idx upd (ix2 n f) = _
  unfold Ideal.hostScatterAdd
  congr 1
  rw [Finset.sum_filter, sum_idx2]
  refine Finset.sum_congr rfl (fun e _ => ?_)
  simp only [row_lands_iff]
  by_cases ht : (idx (ix2 e 0)).toInt = (n.val : Int)
  · simp only [ht, true_and, if_true]
    rw [Finset.sum_ite_eq' Finset.univ f (fun f' => upd (ix2 e f'))]
    simp
  · simp only [ht, false_and, if_false, Finset.sum_const_zero]

end Scatter

end Idealize.ShloMosaic.LeadingAxis

end
-- ==== Proof.EdgeWeights.lean ====
/-
  The edge weights as one function of a node-feature matrix h [100000, 64] and the edge list [2, 1250000].

  Both programs prepare a row index the same way before they gather: a negative index has the number of rows, 100000,
  added (`normIdx`), and the gather reads the index as a signed integer clamped into 0 … 99999 (`rowOf`). The weight of
  edge e is the rectified cosine (`cosRow`) of the rows named by its source and its destination.
-/
import proofs.«132767_j76012331205217_1_alg».proof.Proof.EdgeCos
import proofs.«132767_j76012331205217_1_alg».proof.Proof.LibLeadingAxis

noncomputable section

namespace Cert.EdgeCos

open Idealize.ShloMosaic Idealize.ShloMosaic.ValueIdx

/-- A row index as both programs normalise it: negative indices count from the end. -/
def normIdx (z : BitVec 32) : BitVec 32 := Scalar.select (IntOp.cmpi .slt z 0#32) (IntOp.addi z 100000#32) z

/-- The row a gather from 100000 rows reads at the normalised index. -/
def rowOf (z : BitVec 32) : Fin 100000 := LeadingAxis.clampRow 100000 (by decide) (normIdx z)

/-- The weight of every edge: the rectified cosine of its two end nodes' feature rows. -/
def edgeWeights (h : FVec Ideal ⟨2, ![100000, 64]⟩ .f32) (ei : IVec ⟨2, ![2, 1250000]⟩ 32) : FVec Ideal ⟨1, ![1250000]⟩ .f32 :=
  fun e => cosRow
    (fun k : Fin 64 => h (ix2 (rowOf (ei (ix2 (0 : Fin 2) (⟨(e 0).val, (e 0).isLt⟩ : Fin 1250000)))) k))
    (fun k : Fin 64 => h (ix2 (rowOf (ei (ix2 (1 : Fin 2) (⟨(e 0).val, (e 0).isLt⟩ : Fin 1250000)))) k))

theorem edgeWeights_ix1 (h : FVec Ideal ⟨2, ![100000, 64]⟩ .f32) (ei : IVec ⟨2, ![2, 1250000]⟩ 32) (e : Fin 1250000) :
    edgeWeights h ei (ix1 e)
      = cosRow (fun k : Fin 64 => h (ix2 (rowOf (ei (ix2 (0 : Fin 2) e))) k))
          (fun k : Fin 64 => h (ix2 (rowOf (ei (ix2 (1 : Fin 2) e))) k)) := rfl

end Cert.EdgeCos

end
-- ==== Proof.LibLifts.lean ====
/-
  Lifting a vector to a matrix with one unit axis, and back, read at coordinates (any extents):
  * a vector [a] lifted by broadcast_in_dim along axis 0 to the column [a, 1] reads, at (n, u), the vector at n;
  * a column [a, 1] reshaped to the vector [a] reads, at n, the column at (n, 0);
  * a vector [b] lifted by broadcast_in_dim along axis 1 to the row [1, b] reads, at (u, f), the vector at f.
-/
import Idealize.ShloMosaic.Lib.Pipeline.Value
import Idealize.ShloMosaic.Lib.ValueIdx

namespace Idealize.ShloMosaic.Lifts

open Idealize.ShloMosaic Idealize.ShloMosaic.ValueIdx

variable {α : Type}

/-- A vector lifted to a column. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (n : Fin a) (u : Fin 1) :
    broadcastInDim ⟨2, ![a, 1]⟩ ![0] h x (ix2 n u) = x (ix1 n) := by
  refine broadcastInDim_apply _ h x (ix2 n u) (ix1 n) fun ax => ?_
  match ax with
  | ⟨0, _⟩ =>
    show n.val = if a = 1 then 0 else n.val
    split
    · have := n.isLt; omega
    · rfl

/-- A column reshaped to a vector. -/
theorem shapeCast_a1_a_apply {a : ℕ} (x : (⟨2, ![a, 1]⟩ : Shape).Idx → α)
    (h : (⟨2, ![a, 1]⟩ : Shape).ShapeCasts ⟨1, ![a]⟩) (n : Fin a) :
    shapeCast ⟨1, ![a]⟩ x h (ix1 n) = x (ix2 n (0 : Fin 1)) :=
  shapeCast_apply x h _ _ (by
    rw [Shape.rowMajor_val_two, Shape.rowMajor_val_one]
    show n.val * 1 + 0 = n.val
    omega)

/-- A vector lifted to a row. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (f : Fin b) :
    broadcastInDim ⟨2, ![1, b]⟩ ![1] h x (ix2 u f) = x (ix1 f) := by
  refine broadcastInDim_apply _ h x (ix2 u f) (ix1 f) fun ax => ?_
  match ax with
  | ⟨0, _⟩ =>
    show f.val = if b = 1 then 0 else f.val
    split
    · have := f.isLt; omega
    · rfl

end Idealize.ShloMosaic.Lifts
-- ==== Proof.KernelEdges.lean ====
/-
  The kernel program's side of the edge weights, read off its run's fold.

  Region 0 is entered with the input rows, the transposed weights and the bias recast as a row, so it leaves the hidden
  layer `hK`: entry (r, q) is tanh(Σ_k x(r,k)·W(q,k) + b(q)). The host then pads the source and destination indices with
  zeros to 1253376 entries, normalises negative ones and gathers: at a position e < 1250000 the padding changes nothing, so
  row e of each gathered array is the hidden layer's row named by edge e's end. Region 1 leaves the column of rectified
  cosines of those rows, and the first 1250000 entries of that column, as a vector, are the edge weights:
  `EdgeCos.edgeWeights hK (edge list)`. The padded rows are computed and dropped.
-/
import proofs.«132767_j76012331205217_1_alg».proof.Proof.Gen.KernelIdeal.Frame
import proofs.«132767_j76012331205217_1_alg».proof.Proof.RegionArrays
import proofs.«132767_j76012331205217_1_alg».proof.Proof.EdgeWeights
import proofs.«132767_j76012331205217_1_alg».proof.Proof.LibLifts
import Idealize.ShloMosaic.Lib.KernelVsHost
import Idealize.ShloMosaic.Lib.ValueLayout
import Idealize.ShloMosaic.Lib.StableHlo.Run

set_option maxRecDepth 16384

noncomputable section

namespace Cert.KernelIdeal.Edges

open Cert.KernelIdeal Cert.KernelIdeal.Gen
open Idealize.ShloMosaic Idealize.ShloMosaic.TcCoe Idealize.ShloMosaic.ValueIdx Idealize.ShloMosaic.StableHlo Idealize.SL.Sem
open scoped BigOperators

variable (m : (ℓ : Loc nD τ sig) → Buf (Elt Ideal) ℓ) (ρ : Dev nD → PrngReg)

/-! ## What region 0 is entered with, and what it leaves -/

theorem entry_rows (c : Dev nD) : V1 m ρ c main_arg0 = m ((c : Thread nD τ).loc main_arg0) := by
  show after hostOps0 (W0 m ρ c) (Proc.devRef .tc main_arg0) = _
  after_results_simp <;> rfl

theorem entry_weights (c : Dev nD) :
    V1 m ρ c main_v4 = transpose S64x64 [1, 0] (m ((c : Thread nD τ).loc main_arg3)) transposes_S64x64_S64x64_1_0 := by
  show after hostOps0 (W0 m ρ c) (Proc.devRef .tc main_v4) = _
  after_results_simp <;> rfl

theorem entry_bias (c : Dev nD) :
    V1 m ρ c main_v5 = shapeCast S1x64 (m ((c : Thread nD τ).loc main_arg4)) shapeCasts_S64_S1x64 := by
  show after hostOps0 (W0 m ρ c) (Proc.devRef .tc main_v5) = _
  after_results_simp <;> rfl

/-- The hidden layer as the kernel program computes it from its arguments. -/
def hK (c : Dev nD) : FVec Ideal S100000x64 .f32 :=
  Arrays.hidden (m ((c : Thread nD τ).loc main_arg0))
    (transpose S64x64 [1, 0] (m ((c : Thread nD τ).loc main_arg3)) transposes_S64x64_S64x64_1_0)
    (shapeCast S1x64 (m ((c : Thread nD τ).loc main_arg4)) shapeCasts_S64_S1x64)

/-- Region 0 leaves the hidden layer in its output array. -/
theorem hidden_array (c : Dev nD) : W2 m ρ c (Proc.devRef .tc main_v6) = hK m c := by
  refine (W2_arr m ρ c 3).trans ((Arrays.array0 (V1 m ρ) c).trans ?_)
  rw [entry_rows, entry_weights, entry_bias] <;> rfl

/-- Entry (r, q) of the hidden layer in terms of the arguments x, W, b. -/
theorem hK_apply (c : Dev nD) (r : Fin 100000) (q : Fin 64)
    (X : FVec Ideal S100000x64 .f32) (W : FVec Ideal S64x64 .f32) (b : FVec Ideal S64 .f32)
    (hX : m ((c : Thread nD τ).loc main_arg0) = X) (hW : m ((c : Thread nD τ).loc main_arg3) = W)
    (hb : m ((c : Thread nD τ).loc main_arg4) = b) :
    hK m c (ix2 r q) = Ideal.tanh ((∑ k : Fin 64, X (ix2 r k) * W (ix2 q k)) + b (ix1 q)) := by
  unfold hK
  rw [Arrays.hidden_ix2, hX, hW, hb]
  refine congrArg Ideal.tanh (congrArg₂ (fun a b : EReal => a + b) (Finset.sum_congr rfl fun k _ =>
    congrArg₂ (fun a b : EReal => a * b) rfl ?_) ?_)
  · exact transpose_ix2_apply _ _ k q
  · exact shapeCast_a_1a_apply _ _ 0 q

/-! ## The source and destination indices -/

/-- The source indices: row 0 of the edge list, as a vector. -/
theorem src_eq (c : Dev nD) : W1 m ρ c (Proc.devRef .tc main_v1) = shapeCast S1250000 (extractStridedSlice S1x1250000 ![0, 0]
    (m ((c : Thread nD τ).loc main_arg2)) slices_S2x1250000_S1x1250000_0_0) shapeCasts_S1x1250000_S1250000 := by
  show after hostOps0 (W0 m ρ c) (Proc.devRef .tc main_v1) = _
  after_results_simp <;> rfl

theorem src_apply (c : Dev nD) (e : Fin 1250000) :
    (W1 m ρ c (Proc.devRef .tc main_v1) : IVec S1250000 32) (ix1 e)
      = (m ((c : Thread nD τ).loc main_arg2) : IVec S2x1250000 32) (ix2 (0 : Fin 2) e) := by
  rw [src_eq, shapeCast_1a_a_apply, slice2_axis0_eq]
  rfl

/-- The destination indices: row 1 of the edge list, as a vector. -/
theorem dst_eq (c : Dev nD) : W1 m ρ c (Proc.devRef .tc main_v3) = shapeCast S1250000 (extractStridedSlice S1x1250000 ![1, 0]
    (m ((c : Thread nD τ).loc main_arg2)) slices_S2x1250000_S1x1250000_1_0) shapeCasts_S1x1250000_S1250000 := by
  show after hostOps0 (W0 m ρ c) (Proc.devRef .tc main_v3) = _
  after_results_simp <;> rfl

theorem dst_apply (c : Dev nD) (e : Fin 1250000) :
    (W1 m ρ c (Proc.devRef .tc main_v3) : IVec S1250000 32) (ix1 e)
      = (m ((c : Thread nD τ).loc main_arg2) : IVec S2x1250000 32) (ix2 (1 : Fin 2) e) := by
  rw [dst_eq, shapeCast_1a_a_apply, slice2_axis0_eq]
  rfl

/-! ## Padding, normalising, gathering -/

/-- A vector of 1250000 indices padded with 3376 trailing entries. -/
def padded (src : IVec S1250000 32) (v : IVec S_ 32) : IVec S1253376 32 :=
  pad S1253376 ![0] ![3376] ![0] src v pads_S1250000_S1253376_033760 h_S_

/-- The padded indices, normalised, as the start indices [1253376, 1] of a gather. -/
def startIdx (src : IVec S1250000 32) (v : IVec S_ 32) : IVec S1253376x1 32 :=
  broadcastInDim S1253376x1 ![0] bcast_S1253376_S1253376x1_0
    (select (cmpi .slt (padded src v) (broadcastInDim S1253376 ![] bcast_S_S1253376 (constantI S_ 32 0#32)))
      (addi (padded src v) (broadcastInDim S1253376 ![] bcast_S_S1253376 (constantI S_ 32 100000#32)))
      (padded src v))

/-- Inside the original extent the padding is invisible. -/
theorem padded_apply (src : IVec S1250000 32) (v : IVec S_ 32) (e : Fin 1253376) (he : e.val < 1250000) :
    padded src v (ix1 e) = src (ix1 ⟨e.val, he⟩) :=
  pad_apply_of_inside _ _ _ src v _ _ (ix1 e) (ix1 ⟨e.val, he⟩) (fun a => match a with
    | ⟨0, _⟩ => by show e.val = 0 + e.val * (0 + 1); omega)

theorem startIdx_apply (src : IVec S1250000 32) (v : IVec S_ 32) (e : Fin 1253376) (he : e.val < 1250000) (u : Fin 1) :
    startIdx src v (ix2 e u) = EdgeCos.normIdx (src (ix1 ⟨e.val, he⟩)) := by
  unfold startIdx
  rw [Lifts.broadcastInDim_a_a1_apply, ← padded_apply src v e he]
  rfl

theorem gather_rec : gather_S100000x64_S1253376x1_S1253376x64_1_0_n_n_0_1_164
    = LeadingAxis.rowGatherDims 100000 64 1253376 gather_S100000x64_S1253376x1_S1253376x64_1_0_n_n_0_1_164_wf := rfl

/-- Row e < 1250000 of the first gathered array: the hidden layer's row named by edge e's source. -/
theorem gathered_src (c : Dev nD) (e : Fin 1253376) (he : e.val < 1250000) (k : Fin 64) :
    (V7 m ρ c main_v15 : FVec Ideal S1253376x64 .f32) (ix2 e k)
      = hK m c (ix2 (EdgeCos.rowOf ((m ((c : Thread nD τ).loc main_arg2) : IVec S2x1250000 32) (ix2 (0 : Fin 2) ⟨e.val, he⟩))) k) := by
  have h : V7 m ρ c main_v15 = Host.gather gather_S100000x64_S1253376x1_S1253376x64_1_0_n_n_0_1_164
      (W2 m ρ c (Proc.devRef .tc main_v6)) (startIdx (W2 m ρ c (Proc.devRef .tc main_v1)) (id (constantI S_ 32 0#32))) := by
    show after hostOps1_4 (after hostOps1_3 (after hostOps1_2 (after hostOps1_1 (after hostOps1 (W2 m ρ c)))))
      (Proc.devRef .tc main_v15) = _
    after_results_simp <;> rfl
  rw [h, gather_rec, LeadingAxis.gather_rows_apply (by decide), startIdx_apply _ _ e he, hidden_array,
    W2_of_ne m ρ c main_v1 (by decide), src_apply]
  rfl

theorem gathered_dst (c : Dev nD) (e : Fin 1253376) (he : e.val < 1250000) (k : Fin 64) :
    (V7 m ρ c main_v22 : FVec Ideal S1253376x64 .f32) (ix2 e k)
      = hK m c (ix2 (EdgeCos.rowOf ((m ((c : Thread nD τ).loc main_arg2) : IVec S2x1250000 32) (ix2 (1 : Fin 2) ⟨e.val, he⟩))) k) := by
  have h : V7 m ρ c main_v22 = Host.gather gather_S100000x64_S1253376x1_S1253376x64_1_0_n_n_0_1_164
      (W2 m ρ c (Proc.devRef .tc main_v6)) (startIdx (W2 m ρ c (Proc.devRef .tc main_v3)) (id (constantI S_ 32 0#32))) := by
    show after hostOps1_4 (after hostOps1_3 (after hostOps1_2 (after hostOps1_1 (after hostOps1 (W2 m ρ c)))))
      (Proc.devRef .tc main_v22) = _
    after_results_simp <;> rfl
  rw [h, gather_rec, LeadingAxis.gather_rows_apply (by decide), startIdx_apply _ _ e he, hidden_array,
    W2_of_ne m ρ c main_v3 (by decide), dst_apply]
  rfl

/-! ## Region 1's column, and the edge weights cut from it -/

theorem cos_array (c : Dev nD) :
    W8 m ρ c (Proc.devRef .tc main_v23) = Arrays.cosArr (V7 m ρ c main_v15) (V7 m ρ c main_v22) :=
  (W8_arr m ρ c 2).trans (Arrays.array1 (V7 m ρ) c)

/-- The kernel program's edge weights: the first 1250000 entries of region 1's column, as a vector. -/
def ewK (c : Dev nD) : FVec Ideal S1250000 .f32 :=
  extractStridedSlice S1250000 ![0]
    (shapeCast S1253376 (W8 m ρ c (Proc.devRef .tc main_v23)) shapeCasts_S1253376x1_S1253376) slices_S1253376_S1250000_0

theorem ewK_apply (c : Dev nD) (e : Fin 1250000) :
    ewK m ρ c (ix1 e) = EdgeCos.edgeWeights (hK m c) (m ((c : Thread nD τ).loc main_arg2)) (ix1 e) := by
  have he : e.val < 1253376 := by have := e.isLt; omega
  unfold ewK
  rw [extractStridedSlice_apply ![0] _ _ (ix1 e) (ix1 (⟨e.val, he⟩ : Fin 1253376)) (fun a => match a with
      | ⟨0, _⟩ => by show e.val = 0 + e.val; omega),
    Lifts.shapeCast_a1_a_apply, cos_array, Arrays.cosArr_ix2, EdgeCos.edgeWeights_ix1]
  refine congrArg₂ EdgeCos.cosRow (funext fun k => ?_) (funext fun k => ?_)
  · exact gathered_src m ρ c ⟨e.val, he⟩ e.isLt k
  · exact gathered_dst m ρ c ⟨e.val, he⟩ e.isLt k

/-! ## What the operations after the edge weights read

The contents `Wa` just after the three concatenations (indices with the self loops, weights with the self loops' ones):
the five buffers the remaining operations read, in terms of the arguments and `ewK`. -/

/-- The contents after the first eight operations that follow region 1. -/
def Wa (c : Dev nD) : Valuation τ sig (Elt Ideal) := after ((hostOps2 (F := Ideal)).take 8) (W8 m ρ c)

/-- A buffer written before region 0 and touched by nothing since is still what it was at region 0's entry. -/
theorem W8_src (c : Dev nD) : W8 m ρ c (Proc.devRef .tc main_v1) = W1 m ρ c (Proc.devRef .tc main_v1) := by
  rw [W8_of_ne m ρ c main_v1 (by decide)]
  show after hostOps1_4 (after hostOps1_3 (after hostOps1_2 (after hostOps1_1 (after hostOps1 (W2 m ρ c)))))
    (Proc.devRef .tc main_v1) = _
  after_results_simp
  exact W2_of_ne m ρ c main_v1 (by decide)

theorem W8_dst (c : Dev nD) : W8 m ρ c (Proc.devRef .tc main_v3) = W1 m ρ c (Proc.devRef .tc main_v3) := by
  rw [W8_of_ne m ρ c main_v3 (by decide)]
  show after hostOps1_4 (after hostOps1_3 (after hostOps1_2 (after hostOps1_1 (after hostOps1 (W2 m ρ c)))))
    (Proc.devRef .tc main_v3) = _
  after_results_simp
  exact W2_of_ne m ρ c main_v3 (by decide)

theorem W8_mask (c : Dev nD) : W8 m ρ c (Proc.devRef .tc main_arg1) = m ((c : Thread nD τ).loc main_arg1) := by
  rw [W8_of_ne m ρ c main_arg1 (by decide)]
  show after hostOps1_4 (after hostOps1_3 (after hostOps1_2 (after hostOps1_1 (after hostOps1 (W2 m ρ c)))))
    (Proc.devRef .tc main_arg1) = _
  after_results_simp
  rw [W2_of_ne m ρ c main_arg1 (by decide)]
  show after hostOps0 (W0 m ρ c) (Proc.devRef .tc main_arg1) = _
  after_results_simp <;> rfl

theorem W8_alpha (c : Dev nD) : W8 m ρ c (Proc.devRef .tc main_arg5) = m ((c : Thread nD τ).loc main_arg5) := by
  rw [W8_of_ne m ρ c main_arg5 (by decide)]
  show after hostOps1_4 (after hostOps1_3 (after hostOps1_2 (after hostOps1_1 (after hostOps1 (W2 m ρ c)))))
    (Proc.devRef .tc main_arg5) = _
  after_results_simp
  rw [W2_of_ne m ρ c main_arg5 (by decide)]
  show after hostOps0 (W0 m ρ c) (Proc.devRef .tc main_arg5) = _
  after_results_simp <;> rfl

/-- The source indices with the self loops 0 … 99999 appended. -/
theorem Wa_rows (c : Dev nD) : Wa m ρ c (Proc.devRef .tc main_v27)
    = concatenate S1350000 0 [⟨S1250000, W8 m ρ c (Proc.devRef .tc main_v1)⟩, ⟨S100000, iotaInDim S100000 32 0⟩]
        concatenates_S1250000_S100000_S1350000_d0 := by
  unfold Wa
  simp only [hostOps2, List.take_succ_cons, List.take_zero]
  after_results_simp
  rfl

/-- The destination indices with the self loops appended. -/
theorem Wa_cols (c : Dev nD) : Wa m ρ c (Proc.devRef .tc main_v28)
    = concatenate S1350000 0 [⟨S1250000, W8 m ρ c (Proc.devRef .tc main_v3)⟩, ⟨S100000, iotaInDim S100000 32 0⟩]
        concatenates_S1250000_S100000_S1350000_d0 := by
  unfold Wa
  simp only [hostOps2, List.take_succ_cons, List.take_zero]
  after_results_simp
  rfl

/-- The edge weights with a one per self loop appended. -/
theorem Wa_weights (c : Dev nD) : Wa m ρ c (Proc.devRef .tc main_v30)
    = concatenate S1350000 0 [⟨S1250000, ewK m ρ c⟩,
        ⟨S100000, broadcastInDim S100000 ![] bcast_S_S100000 (constant (F := Ideal) S_ .f32 0x3F800000#32)⟩]
        concatenates_S1250000_S100000_S1350000_d0 := by
  unfold Wa
  simp only [hostOps2, List.take_succ_cons, List.take_zero]
  after_results_simp
  rfl

theorem Wa_mask (c : Dev nD) : Wa m ρ c (Proc.devRef .tc main_arg1) = m ((c : Thread nD τ).loc main_arg1) := by
  unfold Wa
  simp only [hostOps2, List.take_succ_cons, List.take_zero]
  after_results_simp
  exact W8_mask m ρ c

theorem Wa_alpha (c : Dev nD) : Wa m ρ c (Proc.devRef .tc main_arg5) = m ((c : Thread nD τ).loc main_arg5) := by
  unfold Wa
  simp only [hostOps2, List.take_succ_cons, List.take_zero]
  after_results_simp
  exact W8_alpha m ρ c

/-- The first result buffer, the edge weights, keeps `ewK` to the end: nothing after the slice writes it. -/
theorem final_edges (c : Dev nD) : W13 m ρ c (Proc.devRef .tc main_v25) = ewK m ρ c := by
  show after hostOps2_4 (after hostOps2_3 (after hostOps2_2 (after hostOps2_1 (after hostOps2 (W8 m ρ c)))))
    (Proc.devRef .tc main_v25) = _
  after_results_simp <;> rfl

end Cert.KernelIdeal.Edges

end
-- ==== Proof.RefEdges.lean ====
/-
  The reference's side of the edge weights, read off its run one operation at a time.

  Its hidden layer is tanh(x·Wᵀ + b) with W transposed on the host and b lifted twice: entry (r, q) is
  tanh(Σ_k x(r,k)·W(q,k) + b(q)). It gathers the rows named by the normalised source and destination indices, sums the
  three entrywise products along each row from the zero word, and forms the rectified cosine: `EdgeCos.edgeWeights` of
  its hidden layer and the edge list.
-/
import proofs.«132767_j76012331205217_1_alg».proof.Proof.Gen.ReferenceIdeal.Read
import proofs.«132767_j76012331205217_1_alg».proof.Proof.EdgeWeights
import Idealize.ShloMosaic.Lib.ValueIdx

noncomputable section

namespace Cert.ReferenceIdeal.Edges

open Cert.ReferenceIdeal Cert.ReferenceIdeal.Gen Cert.ReferenceIdeal.Read
open Idealize.ShloMosaic Idealize.ShloMosaic.ValueIdx
open scoped BigOperators

/-- Entry (r, q) of the reference's hidden layer. -/
theorem hidden_apply (x0 : (⟨S100000x64, .f32⟩ : BufTy).Contents (Elt Ideal)) (x3 : (⟨S64x64, .f32⟩ : BufTy).Contents (Elt Ideal))
    (x4 : (⟨S64, .f32⟩ : BufTy).Contents (Elt Ideal)) (r : Fin 100000) (q : Fin 64) :
    val_main_v5 (F := Ideal) x0 x3 x4 (ix2 r q)
      = Ideal.tanh ((∑ k : Fin 64, x0 (ix2 r k) * x3 (ix2 q k)) + x4 (ix1 q)) := by
  rw [val_main_v5_apply, val_main_v4_apply, val_main_v1_apply, val_main_v3_apply, val_main_v2_apply]
  refine congrArg Ideal.tanh (congrArg₂ (fun a b : EReal => a + b) (Finset.sum_congr rfl fun k _ =>
    congrArg₂ (fun a b : EReal => a * b) (congrArg x0 ?_) ?_) (congrArg x4 ?_))
  · funext a
    match a with
    | ⟨0, _⟩ => rfl
    | ⟨1, _⟩ => rfl
  · rw [val_main_v0_apply]
    refine congrArg x3 ?_
    funext a
    match a with
    | ⟨0, _⟩ => rfl
    | ⟨1, _⟩ => rfl
  · funext a
    match a with
    | ⟨0, _⟩ => rfl

/-- The position in the edge list that entry e of the reshaped first row reads. -/
theorem src_pos (e : Fin 1250000) : idx_main_v6 (idx_main_v7 (ix1 e)) = (ix2 (0 : Fin 2) e : S2x1250000.Idx) := by
  funext a
  apply Fin.ext
  match a with
  | ⟨0, _⟩ => rfl
  | ⟨1, _⟩ => exact Nat.mod_eq_of_lt e.isLt

theorem dst_pos (e : Fin 1250000) : idx_main_v8 (idx_main_v9 (ix1 e)) = (ix2 (1 : Fin 2) e : S2x1250000.Idx) := by
  funext a
  apply Fin.ext
  match a with
  | ⟨0, _⟩ => rfl
  | ⟨1, _⟩ => exact Nat.mod_eq_of_lt e.isLt

/-- The start index of the first gather at edge e: the normalised source index. -/
theorem src_index (x2 : (⟨S2x1250000, .i32⟩ : BufTy).Contents (Elt Ideal)) (e : Fin 1250000) (u : Fin 1) :
    val_main_v15 (F := Ideal) x2 (ix2 e u) = EdgeCos.normIdx (x2 (ix2 (0 : Fin 2) e)) := by
  rw [val_main_v15_apply]
  have hi : idx_main_v15 (ix2 e u : S1250000x1.Idx) = ix1 e := funext fun a => match a with | ⟨0, _⟩ => rfl
  rw [hi, val_main_v14_apply, val_main_v11_apply, val_main_v13_apply, val_main_v10_apply, val_main_v12_apply,
    val_main_v7_apply, val_main_v6_apply, src_pos]
  rfl

theorem dst_index (x2 : (⟨S2x1250000, .i32⟩ : BufTy).Contents (Elt Ideal)) (e : Fin 1250000) (u : Fin 1) :
    val_main_v22 (F := Ideal) x2 (ix2 e u) = EdgeCos.normIdx (x2 (ix2 (1 : Fin 2) e)) := by
  rw [val_main_v22_apply]
  have hi : idx_main_v22 (ix2 e u : S1250000x1.Idx) = ix1 e := funext fun a => match a with | ⟨0, _⟩ => rfl
  rw [hi, val_main_v21_apply, val_main_v18_apply, val_main_v20_apply, val_main_v17_apply, val_main_v19_apply,
    val_main_v9_apply, val_main_v8_apply, dst_pos]
  rfl

/-- The printed gather record is the row gather of a [100000, 64] matrix at 1250000 start indices. -/
theorem gather_rec : gather_S100000x64_S1250000x1_S1250000x64_1_0_n_n_0_1_164
    = LeadingAxis.rowGatherDims 100000 64 1250000 gather_S100000x64_S1250000x1_S1250000x64_1_0_n_n_0_1_164_wf := rfl

/-- Row e of the first gathered array: the hidden layer's row named by edge e's source. -/
theorem gathered_src (x0 : (⟨S100000x64, .f32⟩ : BufTy).Contents (Elt Ideal)) (x2 : (⟨S2x1250000, .i32⟩ : BufTy).Contents (Elt Ideal))
    (x3 : (⟨S64x64, .f32⟩ : BufTy).Contents (Elt Ideal)) (x4 : (⟨S64, .f32⟩ : BufTy).Contents (Elt Ideal)) (e : Fin 1250000) (k : Fin 64) :
    val_main_v16 (F := Ideal) x0 x2 x3 x4 (ix2 e k)
      = val_main_v5 (F := Ideal) x0 x3 x4 (ix2 (EdgeCos.rowOf (x2 (ix2 (0 : Fin 2) e))) k) := by
  unfold val_main_v16
  rw [gather_rec, LeadingAxis.gather_rows_apply (by decide), src_index]
  rfl

theorem gathered_dst (x0 : (⟨S100000x64, .f32⟩ : BufTy).Contents (Elt Ideal)) (x2 : (⟨S2x1250000, .i32⟩ : BufTy).Contents (Elt Ideal))
    (x3 : (⟨S64x64, .f32⟩ : BufTy).Contents (Elt Ideal)) (x4 : (⟨S64, .f32⟩ : BufTy).Contents (Elt Ideal)) (e : Fin 1250000) (k : Fin 64) :
    val_main_v23 (F := Ideal) x0 x2 x3 x4 (ix2 e k)
      = val_main_v5 (F := Ideal) x0 x3 x4 (ix2 (EdgeCos.rowOf (x2 (ix2 (1 : Fin 2) e))) k) := by
  unfold val_main_v23
  rw [gather_rec, LeadingAxis.gather_rows_apply (by decide), dst_index]
  rfl

theorem row_pos (e : Fin 1250000) (k : Fin 64) : idx_main_v25 (ix1 e) k = (ix2 e k : S1250000x64.Idx) := by
  funext a
  match a with
  | ⟨0, _⟩ => rfl
  | ⟨1, _⟩ => rfl

/-- The reference's edge weights are `edgeWeights` of its hidden layer and the edge list. -/
theorem edges_apply (x0 : (⟨S100000x64, .f32⟩ : BufTy).Contents (Elt Ideal)) (x2 : (⟨S2x1250000, .i32⟩ : BufTy).Contents (Elt Ideal))
    (x3 : (⟨S64x64, .f32⟩ : BufTy).Contents (Elt Ideal)) (x4 : (⟨S64, .f32⟩ : BufTy).Contents (Elt Ideal)) (e : Fin 1250000) :
    val_main_v38 (F := Ideal) x0 x2 x3 x4 (ix1 e)
      = EdgeCos.edgeWeights (val_main_v5 (F := Ideal) x0 x3 x4) x2 (ix1 e) := by
  rw [EdgeCos.edgeWeights_ix1, ← EdgeCos.cosRow_zero_add]
  rw [val_main_v38_apply, val_main_v37_apply, val_main_v36_apply, val_main_v28_apply, val_main_v33_apply,
    val_main_v26_apply, val_main_v31_apply, val_main_v35_apply, val_main_v25_apply, val_main_v30_apply]
  have hrow25 : ∀ k : Fin 64, idx_main_v25 (ix1 e) k = (ix2 e k : S1250000x64.Idx) := row_pos e
  have hrow30 : ∀ k : Fin 64, idx_main_v30 (ix1 e) k = (ix2 e k : S1250000x64.Idx) := fun k => by
    funext a
    match a with
    | ⟨0, _⟩ => rfl
    | ⟨1, _⟩ => rfl
  have hrow35 : ∀ k : Fin 64, idx_main_v35 (ix1 e) k = (ix2 e k : S1250000x64.Idx) := fun k => by
    funext a
    match a with
    | ⟨0, _⟩ => rfl
    | ⟨1, _⟩ => rfl
  refine congrArg₂ max (congrArg₂ Ideal.div (congrArg₂ (fun a b : EReal => a + b) rfl (Finset.sum_congr rfl fun k _ => ?_))
    (congrArg₂ (fun a b : EReal => a * b)
      (congrArg₂ max (congrArg Ideal.sqrt (congrArg₂ (fun a b : EReal => a + b) rfl (Finset.sum_congr rfl fun k _ => ?_))) rfl)
      (congrArg₂ max (congrArg Ideal.sqrt (congrArg₂ (fun a b : EReal => a + b) rfl (Finset.sum_congr rfl fun k _ => ?_))) rfl))) rfl
  · rw [hrow35, val_main_v34_apply, gathered_src, gathered_dst]; rfl
  · rw [hrow25, val_main_v24_apply, gathered_src]; rfl
  · rw [hrow30, val_main_v29_apply, gathered_dst]; rfl

end Cert.ReferenceIdeal.Edges

end
-- ==== Proof.LibFold.lean ====
/-
  Two general facts about runs. (1) The contents after a list of host operations is a fold, so running two lists one after
  the other is running their concatenation: a long straight-line program can be cut at any operation and each part read
  separately. (2) Two facts about the final memory of every weakly fair execution of one program from one state hold
  together: termination and progress are the same statement in both, only the postconditions combine.
-/
import Idealize.ShloMosaic.Lib.StableHlo.Run

namespace Idealize.ShloMosaic.Fold

open Idealize.ShloMosaic Idealize.ShloMosaic.StableHlo Idealize.SL.Sem

/-- Running two lists of operations one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- Two postconditions of one run hold together. -/
theorem run_and {nD : Nat} {τ : Topo} {sig : RefSig} {Val : EltTy → Type} {Λ : Labels}
    (defs : Defs nD τ sig Val Λ) (p : (c : Thread nD τ) → Prog (TpuEff nD τ sig Val Λ c.2) PUnit)
    (s : MemSt nD τ sig Val) {Q₁ Q₂ : PUnit × MemSt nD τ sig Val → Prop}
    (h₁ : θ_run defs p s Q₁) (h₂ : θ_run defs p s Q₂) : θ_run defs p s (fun r => Q₁ r ∧ Q₂ r) :=
  ⟨fun t ht hf => ⟨h₁.post t ht hf, h₂.post t ht hf⟩, h₁.progress, h₁.fair⟩

end Idealize.ShloMosaic.Fold
-- ==== Proof.RefFold.lean ====
/-
  The reference's run as a fold, cut where the shared operations begin.

  The reference is 204 host operations in a straight line, so every buffer ends at the fold of the operations over the
  launch memory. The first 50 operations make the edge weights (`V50`: its `main_v38` is the generated run's term for
  them); the next six append the self loops to the indices and the ones to the weights (`V56`); the remaining 148 are
  the operations it shares with the kernel program.
-/
import proofs.«132767_j76012331205217_1_alg».proof.Proof.Gen.ReferenceIdeal.Run
import proofs.«132767_j76012331205217_1_alg».proof.Proof.LibFold
import Idealize.ShloMosaic.PureOps.Ideal

set_option maxRecDepth 16384
set_option Elab.async false

noncomputable section

namespace Cert.ReferenceIdeal.Fold

open Cert.ReferenceIdeal Cert.ReferenceIdeal.Gen Cert.ReferenceIdeal.Value
open Idealize.ShloMosaic Idealize.ShloMosaic.TcCoe Idealize.ShloMosaic.StableHlo Idealize.SL.Sem

variable (m : (ℓ : Loc nD τ sig) → Buf (Elt Ideal) ℓ) (ρ : Dev nD → PrngReg)

/-- Every weakly fair execution terminates with every buffer at the fold of the operations over the launch memory. -/
theorem run_fold : θ_run defs (onTc (τ := τ) (main (F := Ideal))) ⟨m, fun _ => 0, ρ⟩ fun r =>
    ∀ (c : Dev nD) (b : Ref sig .tc),
      r.2.mem ((c.tc : Thread nD τ).loc b) = after (ops (F := Ideal)) (launchContents m c) (Proc.devRef .tc b) :=
  run_seq scopedRefs_eq scopedSems_eq defs main (fun _ => ops) main_eq (fun _ => ops_sub) m ρ

/-- The contents after the 50 operations that make the edge weights. -/
def V50 (c : Dev nD) : Valuation τ sig (Elt Ideal) := after ((ops (F := Ideal)).take 50) (launchContents m c)
/-- The contents after the six operations that append the self loops. -/
def V56 (c : Dev nD) : Valuation τ sig (Elt Ideal) := after (((ops (F := Ideal)).drop 50).take 6) (V50 m c)

/-- The operation list cut at its 50th and 56th operations (no operation is looked at). -/
theorem ops_split : (ops (F := Ideal))
    = (ops (F := Ideal)).take 50 ++ (((ops (F := Ideal)).drop 50).take 6 ++ (ops (F := Ideal)).drop 56) := by
  have h3 : ((ops (F := Ideal)).drop 50).drop 6 = (ops (F := Ideal)).drop 56 := by rw [List.drop_drop]
  rw [← h3, List.take_append_drop, List.take_append_drop]

/-- The whole fold is the last 148 operations run from `V56`. -/
theorem fold_split (c : Dev nD) :
    after (ops (F := Ideal)) (launchContents m c) = after ((ops (F := Ideal)).drop 56) (V56 m c) := by
  unfold V56 V50
  rw [← Fold.after_append, ← Fold.after_append]
  exact congrArg (fun l => after l (launchContents m c)) ops_split

set_option maxHeartbeats 20000000 in
/-- Nothing after the 50th operation writes the edge weights' buffer. -/
theorem late_edges (W : Valuation τ sig (Elt Ideal)) :
    after ((ops (F := Ideal)).drop 50) W (Proc.devRef .tc main_v38) = W (Proc.devRef .tc main_v38) := by
  simp only [ops, List.drop_succ_cons, List.drop_zero]
  after_results_simp

/-- The edge weights after the first 50 operations are what the whole fold ends with there; `E` names that by the
    generated run's term (both are facts about one final memory). -/
theorem V50_edges (c : Dev nD)
    (E : after (ops (F := Ideal)) (launchContents m c) (Proc.devRef .tc main_v38) = res_main_v38 m c) :
    V50 m c (Proc.devRef .tc main_v38) = res_main_v38 m c := by
  have h : after (ops (F := Ideal)) (launchContents m c) = after ((ops (F := Ideal)).drop 50) (V50 m c) := by
    unfold V50
    rw [← Fold.after_append, List.take_append_drop]
  rw [← E, h, late_edges]

set_option maxHeartbeats 20000000 in
theorem V50_src (c : Dev nD) : V50 m c (Proc.devRef .tc main_v7) = shapeCast S1250000 (extractStridedSlice S1x1250000 ![0, 0]
    (m ((c.tc : Thread nD τ).loc main_arg2)) slices_S2x1250000_S1x1250000_0_0) shapeCasts_S1x1250000_S1250000 := by
  unfold V50
  simp only [ops, List.take_succ_cons, List.take_zero]
  after_results_simp <;> rfl

set_option maxHeartbeats 20000000 in
theorem V50_dst (c : Dev nD) : V50 m c (Proc.devRef .tc main_v9) = shapeCast S1250000 (extractStridedSlice S1x1250000 ![1, 0]
    (m ((c.tc : Thread nD τ).loc main_arg2)) slices_S2x1250000_S1x1250000_1_0) shapeCasts_S1x1250000_S1250000 := by
  unfold V50
  simp only [ops, List.take_succ_cons, List.take_zero]
  after_results_simp <;> rfl

set_option maxHeartbeats 20000000 in
theorem V56_rows (c : Dev nD) : V56 m c (Proc.devRef .tc main_v40)
    = concatenate S1350000 0 [⟨S1250000, V50 m c (Proc.devRef .tc main_v7)⟩, ⟨S100000, iotaInDim S100000 32 0⟩]
        concatenates_S1250000_S100000_S1350000_d0 := by
  unfold V56
  simp only [ops, List.take_succ_cons, List.take_zero, List.drop_succ_cons, List.drop_zero]
  after_results_simp
  rfl

set_option maxHeartbeats 20000000 in
theorem V56_cols (c : Dev nD) : V56 m c (Proc.devRef .tc main_v41)
    = concatenate S1350000 0 [⟨S1250000, V50 m c (Proc.devRef .tc main_v9)⟩, ⟨S100000, iotaInDim S100000 32 0⟩]
        concatenates_S1250000_S100000_S1350000_d0 := by
  unfold V56
  simp only [ops, List.take_succ_cons, List.take_zero, List.drop_succ_cons, List.drop_zero]
  after_results_simp
  rfl

set_option maxHeartbeats 20000000 in
theorem V56_weights (c : Dev nD) : V56 m c (Proc.devRef .tc main_v43)
    = concatenate S1350000 0 [⟨S1250000, V50 m c (Proc.devRef .tc main_v38)⟩,
        ⟨S100000, broadcastInDim S100000 ![] bcast_S_S100000 (constant (F := Ideal) S_ .f32 0x3F800000#32)⟩]
        concatenates_S1250000_S100000_S1350000_d0 := by
  unfold V56
  simp only [ops, List.take_succ_cons, List.take_zero, List.drop_succ_cons, List.drop_zero]
  after_results_simp
  rfl

set_option maxHeartbeats 20000000 in
theorem V56_mask (c : Dev nD) : V56 m c (Proc.devRef .tc main_arg1) = m ((c.tc : Thread nD τ).loc main_arg1) := by
  unfold V56 V50
  simp only [ops, List.take_succ_cons, List.take_zero, List.drop_succ_cons, List.drop_zero]
  after_results_simp <;> rfl

set_option maxHeartbeats 20000000 in
theorem V56_alpha (c : Dev nD) : V56 m c (Proc.devRef .tc main_arg5) = m ((c.tc : Thread nD τ).loc main_arg5) := by
  unfold V56 V50
  simp only [ops, List.take_succ_cons, List.take_zero, List.drop_succ_cons, List.drop_zero]
  after_results_simp <;> rfl

end Cert.ReferenceIdeal.Fold

end
-- ==== Proof.SharedTail.lean ====
/-
  The part the two programs share. After the edge weights are made, both programs run the same 154 host operations — the
  degree of every node by an accumulating scatter of the weights and of the self loops, its inverse square root, the
  normalised weights, and five steps of  f ← (1 − α)·Â f + α·f₀  — on the same five values: the edge weights, the source
  and destination indices (each with the self loops appended), the mask and α. So whatever those five buffers hold, if they hold the same in the two programs,
  the two results are the same term: nothing of the shared operations is opened.

  Stated for ANY contents `Wa` of the kernel program's buffers (just after the slice that makes the edge weights) and
  `Vm` of the reference's (just before its first shared operation).
-/
import proofs.«132767_j76012331205217_1_alg».proof.Proof.Gen.KernelIdeal.Launch
import proofs.«132767_j76012331205217_1_alg».proof.Proof.Gen.ReferenceIdeal.Run
import Idealize.ShloMosaic.Lib.StableHlo.Run
import Idealize.ShloMosaic.PureOps.Ideal

set_option maxRecDepth 16384

noncomputable section

namespace Cert.SharedTail

open Idealize.ShloMosaic Idealize.ShloMosaic.TcCoe Idealize.ShloMosaic.StableHlo

set_option maxHeartbeats 80000000 in
/-- The kernel program's result f from contents `Wa` is the reference's from contents `Vm`, when the two agree on what
    the shared operations read: the source and destination indices with the self loops appended, the edge weights with
    the self loops' ones appended, the mask and α. -/
theorem results_agree (Wa : Valuation Cert.KernelIdeal.τ Cert.KernelIdeal.sig (Elt Ideal))
    (Vm : Valuation Cert.ReferenceIdeal.τ Cert.ReferenceIdeal.sig (Elt Ideal))
    (hrow : (Wa (Proc.devRef .tc Cert.KernelIdeal.main_v27) : IVec ⟨1, ![1350000]⟩ 32)
      = Vm (Proc.devRef .tc Cert.ReferenceIdeal.main_v40))
    (hcol : (Wa (Proc.devRef .tc Cert.KernelIdeal.main_v28) : IVec ⟨1, ![1350000]⟩ 32)
      = Vm (Proc.devRef .tc Cert.ReferenceIdeal.main_v41))
    (hw : (Wa (Proc.devRef .tc Cert.KernelIdeal.main_v30) : FVec Ideal ⟨1, ![1350000]⟩ .f32)
      = Vm (Proc.devRef .tc Cert.ReferenceIdeal.main_v43))
    (hmask : (Wa (Proc.devRef .tc Cert.KernelIdeal.main_arg1) : FVec Ideal ⟨2, ![100000, 1]⟩ .f32)
      = Vm (Proc.devRef .tc Cert.ReferenceIdeal.main_arg1))
    (halpha : (Wa (Proc.devRef .tc Cert.KernelIdeal.main_arg5) : FVec Ideal ⟨0, ![]⟩ .f32)
      = Vm (Proc.devRef .tc Cert.ReferenceIdeal.main_arg5)) :
    (after (Cert.KernelIdeal.Gen.hostOps2_4 (F := Ideal)) (after (Cert.KernelIdeal.Gen.hostOps2_3 (F := Ideal))
        (after (Cert.KernelIdeal.Gen.hostOps2_2 (F := Ideal)) (after (Cert.KernelIdeal.Gen.hostOps2_1 (F := Ideal))
          (after ((Cert.KernelIdeal.Gen.hostOps2 (F := Ideal)).drop 8) Wa))))
        (Proc.devRef .tc Cert.KernelIdeal.main_v146) : FVec Ideal ⟨2, ![100000, 1]⟩ .f32)
      = after ((Cert.ReferenceIdeal.Value.ops (F := Ideal)).drop 56) Vm (Proc.devRef .tc Cert.ReferenceIdeal.main_v159) := by
  simp only [Cert.KernelIdeal.Gen.hostOps2, Cert.KernelIdeal.Gen.hostOps2_1, Cert.KernelIdeal.Gen.hostOps2_2,
    Cert.KernelIdeal.Gen.hostOps2_3, Cert.KernelIdeal.Gen.hostOps2_4, Cert.ReferenceIdeal.Value.ops,
    List.drop_succ_cons, List.drop_zero]
  after_results_simp
  rw [hrow, hcol, hw, hmask, halpha]
  rfl

end Cert.SharedTail

end
-- ==== Proof.Bridge.lean ====
/-
  The two programs compute the same values. From memories that agree on the six arguments:

  * the hidden layers are one function: both are tanh(Σ_k x(r,k)·W(q,k) + b(q)), the kernel program's by its first region
    on the transposed weights and the bias row, the reference's by a dot_general and a twice-lifted bias;
  * so the edge weights are one function, `EdgeCos.edgeWeights` of that layer and the edge list: the kernel program's by
    gathers at padded indices, its second region and a slice, the reference's by gathers and host reductions;
  * and the node values f are the same 148 operations applied to the same five values.
-/
import proofs.«132767_j76012331205217_1_alg».proof.Proof.KernelEdges
import proofs.«132767_j76012331205217_1_alg».proof.Proof.RefEdges
import proofs.«132767_j76012331205217_1_alg».proof.Proof.RefFold
import proofs.«132767_j76012331205217_1_alg».proof.Proof.SharedTail

set_option maxRecDepth 16384

noncomputable section

namespace Cert.Bridge

open Idealize.ShloMosaic Idealize.ShloMosaic.TcCoe Idealize.ShloMosaic.StableHlo Idealize.ShloMosaic.ValueIdx Idealize.SL.Sem

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- The hidden layers agree, entry by entry. -/
theorem hidden_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.KernelIdeal.Edges.hK m c = Cert.ReferenceIdeal.Read.val_main_v5 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) := by
  funext i
  obtain ⟨r, q, rfl⟩ : ∃ (r : Fin 100000) (q : Fin 64), i = ix2 r q := ⟨i 0, i 1, eq_ix2 i⟩
  rw [Cert.KernelIdeal.Edges.hK_apply m c r q _ _ _ h0.symm h3.symm h4.symm, Cert.ReferenceIdeal.Edges.hidden_apply]

/-- The edge weights agree. -/
theorem edges_eq (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (c : Dev Cert.KernelIdeal.nD) :
    Cert.KernelIdeal.Edges.ewK m ρ c = Cert.ReferenceIdeal.Value.res_main_v38 m' c := by
  obtain ⟨h0, h1, h2, h3, h4, h5⟩ := hagree c
  rw [Cert.ReferenceIdeal.Read.val_main_v38_eq]
  funext e
  obtain ⟨e, rfl⟩ : ∃ e' : Fin 1250000, e = ix1 e' := ⟨e 0, eq_ix1 e⟩
  rw [Cert.KernelIdeal.Edges.ewK_apply, Cert.ReferenceIdeal.Edges.edges_apply, ← hidden_eq m m' c h0 h3 h4, h2]

set_option maxHeartbeats 4000000 in
/-- The node values agree: the kernel program's last buffer contents at f are the reference's fold at f (`E`: the
    reference's fold at its edge weights, named by the generated run's term). -/
theorem f_eq (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (c : Dev Cert.KernelIdeal.nD)
    (E : after (Cert.ReferenceIdeal.Value.ops (F := Ideal)) (launchContents m' c) (Proc.devRef .tc Cert.ReferenceIdeal.main_v38) = Cert.ReferenceIdeal.Value.res_main_v38 m' c) :
    (Cert.KernelIdeal.Gen.W13 m ρ c (Proc.devRef .tc Cert.KernelIdeal.main_v146) : FVec Ideal ⟨2, ![100000, 1]⟩ .f32)
      = after (Cert.ReferenceIdeal.Value.ops (F := Ideal)) (launchContents m' c) (Proc.devRef .tc Cert.ReferenceIdeal.main_v159) := by
  obtain ⟨h0, h1, h2, h3, h4, h5⟩ := hagree c
  rw [Cert.ReferenceIdeal.Fold.fold_split m' c]
  have hsplit : Cert.KernelIdeal.Gen.W13 m ρ c = after (Cert.KernelIdeal.Gen.hostOps2_4 (F := Ideal)) (after (Cert.KernelIdeal.Gen.hostOps2_3 (F := Ideal))
      (after (Cert.KernelIdeal.Gen.hostOps2_2 (F := Ideal)) (after (Cert.KernelIdeal.Gen.hostOps2_1 (F := Ideal))
        (after ((Cert.KernelIdeal.Gen.hostOps2 (F := Ideal)).drop 8) (Cert.KernelIdeal.Edges.Wa m ρ c))))) := by
    unfold Cert.KernelIdeal.Edges.Wa
    show after (Cert.KernelIdeal.Gen.hostOps2_4 (F := Ideal)) (after (Cert.KernelIdeal.Gen.hostOps2_3 (F := Ideal))
      (after (Cert.KernelIdeal.Gen.hostOps2_2 (F := Ideal)) (after (Cert.KernelIdeal.Gen.hostOps2_1 (F := Ideal))
        (after (Cert.KernelIdeal.Gen.hostOps2 (F := Ideal)) (Cert.KernelIdeal.Gen.W8 m ρ c))))) = _
    rw [← Fold.after_append ((Cert.KernelIdeal.Gen.hostOps2 (F := Ideal)).take 8) ((Cert.KernelIdeal.Gen.hostOps2 (F := Ideal)).drop 8),
      List.take_append_drop]
  rw [hsplit]
  refine Cert.SharedTail.results_agree (Cert.KernelIdeal.Edges.Wa m ρ c) (Cert.ReferenceIdeal.Fold.V56 m' c) ?_ ?_ ?_ ?_ ?_
  · rw [Cert.KernelIdeal.Edges.Wa_rows, Cert.ReferenceIdeal.Fold.V56_rows, Cert.KernelIdeal.Edges.W8_src, Cert.KernelIdeal.Edges.src_eq, Cert.ReferenceIdeal.Fold.V50_src, h2]
  · rw [Cert.KernelIdeal.Edges.Wa_cols, Cert.ReferenceIdeal.Fold.V56_cols, Cert.KernelIdeal.Edges.W8_dst, Cert.KernelIdeal.Edges.dst_eq, Cert.ReferenceIdeal.Fold.V50_dst, h2]
  · rw [Cert.KernelIdeal.Edges.Wa_weights, Cert.ReferenceIdeal.Fold.V56_weights, Cert.ReferenceIdeal.Fold.V50_edges m' c E, ← edges_eq m ρ m' hagree c]
  · rw [Cert.KernelIdeal.Edges.Wa_mask, Cert.ReferenceIdeal.Fold.V56_mask, h1]
  · rw [Cert.KernelIdeal.Edges.Wa_alpha, Cert.ReferenceIdeal.Fold.V56_alpha, h5]

end Cert.Bridge

end
-- ==== Proof.lean ====
/-
  The certificate: a node-feature layer tanh(x·Wᵀ + b), edge weights as rectified cosines of the end nodes' features, and
  five propagation steps f ← (1 − α)·Â f + α·f₀ over the degree-normalised graph with self loops — the kernel program (two
  kernel regions: the layer over ten row blocks, the cosines over 153 row blocks of gathered features padded to 1253376
  edges, with the propagation on the host) against the plain host reference, over the extended reals.

  The three frames: both kernel programs' are the generated frame certificates; the reference has no kernel and its frame is
  its generated run with the results dropped. The idealized kernel program is the printed program read at the extended reals
  with no operation rewritten, so there is nothing to preserve. The two idealized programs end with equal results
  (`algebraic`): the kernel program's final memory is the fold `Gen.W13` (Proof/KernelRun.lean), whose edge weights and
  node values are the reference's (Proof/Bridge.lean) — no law used there needs the inputs to be finite: the two sides
  are the same sums, quotients and maxima in the same order.
-/
import proofs.«132767_j76012331205217_1_alg».proof.Defs
import proofs.«132767_j76012331205217_1_alg».proof.Proof.Gen.Kernel
import proofs.«132767_j76012331205217_1_alg».proof.Proof.Gen.Kernel.Frame
import proofs.«132767_j76012331205217_1_alg».proof.Proof.Gen.KernelIdeal
import proofs.«132767_j76012331205217_1_alg».proof.Proof.Gen.KernelIdeal.Frame
import proofs.«132767_j76012331205217_1_alg».proof.Proof.Gen.ReferenceIdeal
import proofs.«132767_j76012331205217_1_alg».proof.Proof.Gen.ReferenceIdeal.Run
import proofs.«132767_j76012331205217_1_alg».proof.Proof.Gen.ReferenceIdeal.Read
import proofs.«132767_j76012331205217_1_alg».proof.Proof.Gen.Pre_finite_inputs
import proofs.«132767_j76012331205217_1_alg».proof.Proof.KernelRun
import proofs.«132767_j76012331205217_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, keeping only that the arguments end unchanged. -/
theorem frame_referenceIdeal : Cert.frame_ReferenceIdeal := fun m ρ _ =>
  (θ_run Cert.ReferenceIdeal.defs _ _).mono (fun _ h c => (h c).2.2) (Cert.ReferenceIdeal.Value.run (F := Ideal) m ρ)

set_option maxHeartbeats 4000000 in
/-- Both idealized programs end with the node values and the edge weights the kernel program's fold names. -/
theorem algebraic : Cert.algebraic_KernelIdeal_ReferenceIdeal := by
  intro m ρ m' ρ' _ hagree
  refine ⟨fun c => Cert.KernelIdeal.Gen.W13 m ρ c (Proc.devRef .tc Cert.KernelIdeal.main_v146),
    fun c => Cert.KernelIdeal.Gen.W13 m ρ c (Proc.devRef .tc Cert.KernelIdeal.main_v25), ?_, ?_⟩
  · refine (θ_run Cert.KernelIdeal.defs _ _).mono (fun r h c => ?_) (Cert.KernelIdeal.Final.run_final (F := Ideal) m ρ)
    exact ⟨h c _ (Cert.KernelIdeal.Gen.mem_uc Cert.KernelIdeal.main_v146 (by decide)),
      h c _ (Cert.KernelIdeal.Gen.mem_uc Cert.KernelIdeal.main_v25 (by decide)),
      (h c _ (Cert.KernelIdeal.Gen.mem_uc Cert.KernelIdeal.main_arg0 (by decide))).trans (Cert.KernelIdeal.Gen.W13_main_arg0 m ρ c),
      (h c _ (Cert.KernelIdeal.Gen.mem_uc Cert.KernelIdeal.main_arg1 (by decide))).trans (Cert.KernelIdeal.Gen.W13_main_arg1 m ρ c),
      (h c _ (Cert.KernelIdeal.Gen.mem_uc Cert.KernelIdeal.main_arg2 (by decide))).trans (Cert.KernelIdeal.Gen.W13_main_arg2 m ρ c),
      (h c _ (Cert.KernelIdeal.Gen.mem_uc Cert.KernelIdeal.main_arg3 (by decide))).trans (Cert.KernelIdeal.Gen.W13_main_arg3 m ρ c),
      (h c _ (Cert.KernelIdeal.Gen.mem_uc Cert.KernelIdeal.main_arg4 (by decide))).trans (Cert.KernelIdeal.Gen.W13_main_arg4 m ρ c),
      (h c _ (Cert.KernelIdeal.Gen.mem_uc Cert.KernelIdeal.main_arg5 (by decide))).trans (Cert.KernelIdeal.Gen.W13_main_arg5 m ρ c)⟩
  · refine (θ_run Cert.ReferenceIdeal.defs _ _).mono (fun r h c => ?_)
      (Fold.run_and _ _ _ (Cert.ReferenceIdeal.Fold.run_fold m' ρ') (Cert.ReferenceIdeal.Value.run (F := Ideal) m' ρ'))
    obtain ⟨hf, hr⟩ := h
    exact ⟨(hf c Cert.ReferenceIdeal.main_v159).trans
        (Cert.Bridge.f_eq m ρ m' hagree c ((hf c Cert.ReferenceIdeal.main_v38).symm.trans (hr c).2.1)).symm,
      (hr c).2.1.trans ((Cert.Bridge.edges_eq m ρ m' hagree c).symm.trans (Cert.KernelIdeal.Edges.final_edges m ρ c).symm),
      (hr c).2.2⟩

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
